-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S2x2x50x64 : Shape := ⟨4, ![2, 2, 50, 64]⟩
abbrev S2x2x50 : Shape := ⟨3, ![2, 2, 50]⟩
abbrev S2x2x64x50 : Shape := ⟨4, ![2, 2, 64, 50]⟩
abbrev S2x2x64 : Shape := ⟨3, ![2, 2, 64]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S2x2x50x64 : S_.BroadcastsInDim S2x2x50x64 (![] : Fin 0 → Fin S2x2x50x64.rank)
  reducesTo_S2x2x50x64_S_d0_1_2_3 : S2x2x50x64.ReducesTo [0, 1, 2, 3] S_
  bcast_S_S2x2x50 : S_.BroadcastsInDim S2x2x50 (![] : Fin 0 → Fin S2x2x50.rank)
  reducesTo_S2x2x50_S_d0_1_2 : S2x2x50.ReducesTo [0, 1, 2] S_
  bcast_S_S2x2x64x50 : S_.BroadcastsInDim S2x2x64x50 (![] : Fin 0 → Fin S2x2x64x50.rank)
  reducesTo_S2x2x64x50_S_d0_1_2_3 : S2x2x64x50.ReducesTo [0, 1, 2, 3] S_
  bcast_S_S2x2x64 : S_.BroadcastsInDim S2x2x64 (![] : Fin 0 → Fin S2x2x64.rank)
  reducesTo_S2x2x64_S_d0_1_2 : S2x2x64.ReducesTo [0, 1, 2] S_

variable [Facts]

def fn_part2 {F : FTy → Type} [FloatOps F] (main_arg7 : FVec F S2x2x64x50 .f32) (main_arg8 : FVec F S2x2x64 .f32) (main_v33 : IVec S_ 1) : IVec S_ 1 :=
  let main_v34 : FVec F S2x2x64x50 .f32 := Host.absf main_arg7
  let main_cst_12 : FVec F S_ .f32 := constant S_ .f32 0x7F800000#32
  let main_v35 : FVec F S2x2x64x50 .f32 := broadcastInDim S2x2x64x50 ![] bcast_S_S2x2x64x50 main_cst_12
  let main_v36 : IVec S2x2x64x50 1 := cmpf .olt main_v34 main_v35
  let main_c_13 : IVec S_ 1 := constantI S_ 1 1#1
  let main_v37 : IVec S_ 1 := (fun x v => Host.reduce IntOp.andi x v reducesTo_S2x2x64x50_S_d0_1_2_3 h_S_) main_v36 main_c_13
  let main_v38 : IVec S_ 1 := andi main_v33 main_v37
  let main_v39 : FVec F S2x2x64 .f32 := Host.absf main_arg8
  let main_cst_14 : FVec F S_ .f32 := constant S_ .f32 0x7F800000#32
  let main_v40 : FVec F S2x2x64 .f32 := broadcastInDim S2x2x64 ![] bcast_S_S2x2x64 main_cst_14
  let main_v41 : IVec S2x2x64 1 := cmpf .olt main_v39 main_v40
  let main_c_15 : IVec S_ 1 := constantI S_ 1 1#1
  let main_v42 : IVec S_ 1 := (fun x v => Host.reduce IntOp.andi x v reducesTo_S2x2x64_S_d0_1_2 h_S_) main_v41 main_c_15
  let main_v43 : IVec S_ 1 := andi main_v38 main_v42
  main_v43

def fn_part1 {F : FTy → Type} [FloatOps F] (main_arg4 : FVec F S2x2x50 .f32) (main_arg5 : FVec F S2x2x64x50 .f32) (main_arg6 : FVec F S2x2x64 .f32) (main_arg7 : FVec F S2x2x64x50 .f32) (main_arg8 : FVec F S2x2x64 .f32) (main_v13 : IVec S_ 1) (main_v16 : IVec S2x2x50x64 1) : IVec S_ 1 :=
  let main_c_5 : IVec S_ 1 := constantI S_ 1 1#1
  let main_v17 : IVec S_ 1 := (fun x v => Host.reduce IntOp.andi x v reducesTo_S2x2x50x64_S_d0_1_2_3 h_S_) main_v16 main_c_5
  let main_v18 : IVec S_ 1 := andi main_v13 main_v17
  let main_v19 : FVec F S2x2x50 .f32 := Host.absf main_arg4
  let main_cst_6 : FVec F S_ .f32 := constant S_ .f32 0x7F800000#32
  let main_v20 : FVec F S2x2x50 .f32 := broadcastInDim S2x2x50 ![] bcast_S_S2x2x50 main_cst_6
  let main_v21 : IVec S2x2x50 1 := cmpf .olt main_v19 main_v20
  let main_c_7 : IVec S_ 1 := constantI S_ 1 1#1
  let main_v22 : IVec S_ 1 := (fun x v => Host.reduce IntOp.andi x v reducesTo_S2x2x50_S_d0_1_2 h_S_) main_v21 main_c_7
  let main_v23 : IVec S_ 1 := andi main_v18 main_v22
  let main_v24 : FVec F S2x2x64x50 .f32 := Host.absf main_arg5
  let main_cst_8 : FVec F S_ .f32 := constant S_ .f32 0x7F800000#32
  let main_v25 : FVec F S2x2x64x50 .f32 := broadcastInDim S2x2x64x50 ![] bcast_S_S2x2x64x50 main_cst_8
  let main_v26 : IVec S2x2x64x50 1 := cmpf .olt main_v24 main_v25
  let main_c_9 : IVec S_ 1 := constantI S_ 1 1#1
  let main_v27 : IVec S_ 1 := (fun x v => Host.reduce IntOp.andi x v reducesTo_S2x2x64x50_S_d0_1_2_3 h_S_) main_v26 main_c_9
  let main_v28 : IVec S_ 1 := andi main_v23 main_v27
  let main_v29 : FVec F S2x2x64 .f32 := Host.absf main_arg6
  let main_cst_10 : FVec F S_ .f32 := constant S_ .f32 0x7F800000#32
  let main_v30 : FVec F S2x2x64 .f32 := broadcastInDim S2x2x64 ![] bcast_S_S2x2x64 main_cst_10
  let main_v31 : IVec S2x2x64 1 := cmpf .olt main_v29 main_v30
  let main_c_11 : IVec S_ 1 := constantI S_ 1 1#1
  let main_v32 : IVec S_ 1 := (fun x v => Host.reduce IntOp.andi x v reducesTo_S2x2x64_S_d0_1_2 h_S_) main_v31 main_c_11
  let main_v33 : IVec S_ 1 := andi main_v28 main_v32
  fn_part2 (F := F) main_arg7 main_arg8 main_v33

def fn {F : FTy → Type} [FloatOps F] (main_arg0 : FVec F S262144x128 .f32) (main_arg1 : FVec F S262144x128 .f32) (main_arg2 : FVec F S262144x128 .f32) (main_arg3 : FVec F S2x2x50x64 .f32) (main_arg4 : FVec F S2x2x50 .f32) (main_arg5 : FVec F S2x2x64x50 .f32) (main_arg6 : FVec F S2x2x64 .f32) (main_arg7 : FVec F S2x2x64x50 .f32) (main_arg8 : FVec F S2x2x64 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S2x2x50x64 .f32 := Host.absf main_arg3
  let main_cst_4 : FVec F S_ .f32 := constant S_ .f32 0x7F800000#32
  let main_v15 : FVec F S2x2x50x64 .f32 := broadcastInDim S2x2x50x64 ![] bcast_S_S2x2x50x64 main_cst_4
  let main_v16 : IVec S2x2x50x64 1 := cmpf .olt main_v14 main_v15
  fn_part1 (F := F) main_arg4 main_arg5 main_arg6 main_arg7 main_arg8 main_v13 main_v16
-- ==== Kernel.lean ====
abbrev S262144x128 : Shape := ⟨2, ![262144, 128]⟩
abbrev S2x2x50x64 : Shape := ⟨4, ![2, 2, 50, 64]⟩
abbrev S2x2x50 : Shape := ⟨3, ![2, 2, 50]⟩
abbrev S2x2x64x50 : Shape := ⟨4, ![2, 2, 64, 50]⟩
abbrev S2x2x64 : Shape := ⟨3, ![2, 2, 64]⟩
abbrev S2x2x128x50 : Shape := ⟨4, ![2, 2, 128, 50]⟩
abbrev S2x2x128 : Shape := ⟨3, ![2, 2, 128]⟩
abbrev S262144 : Shape := ⟨1, ![262144]⟩
abbrev S4096x128 : Shape := ⟨2, ![4096, 128]⟩
abbrev S4096 : Shape := ⟨1, ![4096]⟩
abbrev S4096x64 : Shape := ⟨2, ![4096, 64]⟩
abbrev S1x1x50x64 : Shape := ⟨4, ![1, 1, 50, 64]⟩
abbrev S50x64 : Shape := ⟨2, ![50, 64]⟩
abbrev S1x1x50 : Shape := ⟨3, ![1, 1, 50]⟩
abbrev S50 : Shape := ⟨1, ![50]⟩
abbrev S1x1x128x50 : Shape := ⟨4, ![1, 1, 128, 50]⟩
abbrev S128x50 : Shape := ⟨2, ![128, 50]⟩
abbrev S1x1x128 : Shape := ⟨3, ![1, 1, 128]⟩
abbrev S128 : Shape := ⟨1, ![128]⟩
abbrev S4096x50 : Shape := ⟨2, ![4096, 50]⟩
abbrev S1x50 : Shape := ⟨2, ![1, 50]⟩
abbrev S1x128 : Shape := ⟨2, ![1, 128]⟩

abbrev nBuf : Space → Nat
  | .hbm => 14
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S2x2x50x64, .f32⟩
  | .hbm, ⟨4, _⟩ => ⟨S2x2x50, .f32⟩
  | .hbm, ⟨5, _⟩ => ⟨S2x2x64x50, .f32⟩
  | .hbm, ⟨6, _⟩ => ⟨S2x2x64, .f32⟩
  | .hbm, ⟨7, _⟩ => ⟨S2x2x64x50, .f32⟩
  | .hbm, ⟨8, _⟩ => ⟨S2x2x64, .f32⟩
  | .hbm, ⟨9, _⟩ => ⟨S2x2x128x50, .f32⟩
  | .hbm, ⟨10, _⟩ => ⟨S2x2x128, .f32⟩
  | .hbm, ⟨11, _⟩ => ⟨S262144x128, .f32⟩
  | .hbm, ⟨12, _⟩ => ⟨S262144, .f32⟩
  | .hbm, ⟨13, _⟩ => ⟨S262144, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S2x2x50x64, .f32⟩
  | .local _ .vmem, ⟨7, _⟩ => ⟨S2x2x50, .f32⟩
  | .local _ .vmem, ⟨8, _⟩ => ⟨S2x2x128x50, .f32⟩
  | .local _ .vmem, ⟨9, _⟩ => ⟨S2x2x128, .f32⟩
  | .local _ .vmem, ⟨10, _⟩ => ⟨S4096x128, .f32⟩
  | .local _ .vmem, ⟨11, _⟩ => ⟨S4096x128, .f32⟩
  | .local _ .vmem, ⟨12, _⟩ => ⟨S4096, .f32⟩
  | .local _ .vmem, ⟨13, _⟩ => ⟨S4096, .f32⟩
  | .local _ .vmem, ⟨14, _⟩ => ⟨S4096, .f32⟩
  | .local _ .vmem, ⟨15, _⟩ => ⟨S4096, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2x50x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2x128x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S2x2x64x50_S2x2x64x50_S2x2x128x50_d2 : Shape.Concatenates [S2x2x64x50, S2x2x64x50] S2x2x128x50 2
  concatenates_S2x2x64_S2x2x64_S2x2x128_d2 : Shape.Concatenates [S2x2x64, S2x2x64] S2x2x128 2
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  slices_S4096x128_o0_0_S4096x64 : S4096x128.Slices ![0, 0] S4096x64
  slices_S4096x128_o0_64_S4096x64 : S4096x128.Slices ![0, 64] S4096x64
  inb_S2x2x50x64_S1x1x50x64_0_0_0_0 : ∀ a, (![0, 0, 0, 0] : Fin 4 → Nat) a + S1x1x50x64.size a ≤ S2x2x50x64.size a
  h_S1x1x50x64 : 0 < S1x1x50x64.numel
  shapeCasts_S1x1x50x64_S50x64 : S1x1x50x64.ShapeCasts S50x64
  inb_S2x2x50_S1x1x50_0_0_0 : ∀ a, (![0, 0, 0] : Fin 3 → Nat) a + S1x1x50.size a ≤ S2x2x50.size a
  h_S1x1x50 : 0 < S1x1x50.numel
  shapeCasts_S1x1x50_S50 : S1x1x50.ShapeCasts S50
  inb_S2x2x128x50_S1x1x128x50_0_0_0_0 : ∀ a, (![0, 0, 0, 0] : Fin 4 → Nat) a + S1x1x128x50.size a ≤ S2x2x128x50.size a
  h_S1x1x128x50 : 0 < S1x1x128x50.numel
  shapeCasts_S1x1x128x50_S128x50 : S1x1x128x50.ShapeCasts S128x50
  inb_S2x2x128_S1x1x128_0_0_0 : ∀ a, (![0, 0, 0] : Fin 3 → Nat) a + S1x1x128.size a ≤ S2x2x128.size a
  h_S1x1x128 : 0 < S1x1x128.numel
  shapeCasts_S1x1x128_S128 : S1x1x128.ShapeCasts S128
  bitsLt_bf16_f32 : FTy.bits .bf16 < FTy.bits .f32
  shapeCasts_S50_S1x50 : S50.ShapeCasts S1x50
  broadcasts_S1x50_S4096x50 : S1x50.Broadcasts S4096x50
  shapeCasts_S128_S1x128 : S128.ShapeCasts S1x128
  broadcasts_S1x128_S4096x128 : S1x128.Broadcasts S4096x128
  reduces_S4096x64_S4096 : S4096x64.Reduces [1] S4096
  inb_S2x2x50x64_S1x1x50x64_0_1_0_0 : ∀ a, (![0, 1, 0, 0] : Fin 4 → Nat) a + S1x1x50x64.size a ≤ S2x2x50x64.size a
  inb_S2x2x50_S1x1x50_0_1_0 : ∀ a, (![0, 1, 0] : Fin 3 → Nat) a + S1x1x50.size a ≤ S2x2x50.size a
  inb_S2x2x128x50_S1x1x128x50_0_1_0_0 : ∀ a, (![0, 1, 0, 0] : Fin 4 → Nat) a + S1x1x128x50.size a ≤ S2x2x128x50.size a
  inb_S2x2x128_S1x1x128_0_1_0 : ∀ a, (![0, 1, 0] : Fin 3 → Nat) a + S1x1x128.size a ≤ S2x2x128.size a
  inb_S2x2x50x64_S1x1x50x64_1_0_0_0 : ∀ a, (![1, 0, 0, 0] : Fin 4 → Nat) a + S1x1x50x64.size a ≤ S2x2x50x64.size a
  inb_S2x2x50_S1x1x50_1_0_0 : ∀ a, (![1, 0, 0] : Fin 3 → Nat) a + S1x1x50.size a ≤ S2x2x50.size a
  inb_S2x2x128x50_S1x1x128x50_1_0_0_0 : ∀ a, (![1, 0, 0, 0] : Fin 4 → Nat) a + S1x1x128x50.size a ≤ S2x2x128x50.size a
  inb_S2x2x128_S1x1x128_1_0_0 : ∀ a, (![1, 0, 0] : Fin 3 → Nat) a + S1x1x128.size a ≤ S2x2x128.size a
  inb_S2x2x50x64_S1x1x50x64_1_1_0_0 : ∀ a, (![1, 1, 0, 0] : Fin 4 → Nat) a + S1x1x50x64.size a ≤ S2x2x50x64.size a
  inb_S2x2x50_S1x1x50_1_1_0 : ∀ a, (![1, 1, 0] : Fin 3 → Nat) a + S1x1x50.size a ≤ S2x2x50.size a
  inb_S2x2x128x50_S1x1x128x50_1_1_0_0 : ∀ a, (![1, 1, 0, 0] : Fin 4 → Nat) a + S1x1x128x50.size a ≤ S2x2x128x50.size a
  inb_S2x2x128_S1x1x128_1_1_0 : ∀ a, (![1, 1, 0] : Fin 3 → Nat) a + S1x1x128.size a ≤ S2x2x128.size a
  concatenates_S4096x64_S4096x64_S4096x128_d1 : Shape.Concatenates [S4096x64, S4096x64] S4096x128 1
  inb_S4096_S4096_0 : ∀ a, (![0] : Fin 1 → Nat) a + S4096.size a ≤ S4096.size a
  h_S4096 : 0 < S4096.numel
  dot_S4096x64_S50x64_S4096x50_1_1_0_0_n_n_wf : DotDims.WF S4096x64 S50x64 S4096x50 [1] [1] [0] [0] [] []
  dot_S4096x50_S128x50_S4096x128_1_1_0_0_n_n_wf : DotDims.WF S4096x50 S128x50 S4096x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2x50x64.size a ≤ S2x2x50x64.size a
  hwx0_3 : ∀ i : grid0.Coords, EltTy.bits .f32 = 32 ∨ (Rect.block (s := S2x2x50x64) S2x2x50x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2x50.size a ≤ S2x2x50.size a
  hwx0_4 : ∀ i : grid0.Coords, EltTy.bits .f32 = 32 ∨ (Rect.block (s := S2x2x50) S2x2x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2x128x50.size a ≤ S2x2x128x50.size a
  hwx0_5 : ∀ i : grid0.Coords, EltTy.bits .f32 = 32 ∨ (Rect.block (s := S2x2x128x50) S2x2x128x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x2x128.size a ≤ S2x2x128.size a
  hwx0_6 : ∀ i : grid0.Coords, EltTy.bits .f32 = 32 ∨ (Rect.block (s := S2x2x128) S2x2x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S262144x128.size a
  hwx0_7 : ∀ i : grid0.Coords, EltTy.bits .f32 = 32 ∨ (Rect.block (s := S262144x128) S4096x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S262144.size a
  hwx0_8 : ∀ i : grid0.Coords, EltTy.bits .f32 = 32 ∨ (Rect.block (s := S262144) S4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096.size a ≤ S262144.size a
  hwx0_9 : ∀ i : grid0.Coords, EltTy.bits .f32 = 32 ∨ (Rect.block (s := S262144) S4096.size (cc0_transform_9 i) (hinb0_9 i)).WholeWords (EltTy.packing .f32)

variable [Facts₀]

def dot_S4096x64_S50x64_S4096x50_1_1_0_0_n_n : DotDims S4096x64 S50x64 S4096x50 where
  lhsContracting := [1]
  rhsContracting := [1]
  lhsNonContracting := [0]
  rhsNonContracting := [0]
  lhsBatch := []
  rhsBatch := []
  wf := dot_S4096x64_S50x64_S4096x50_1_1_0_0_n_n_wf
def dot_S4096x50_S128x50_S4096x128_1_1_0_0_n_n : DotDims S4096x50 S128x50 S4096x128 where
  lhsContracting := [1]
  rhsContracting := [1]
  lhsNonContracting := [0]
  rhsNonContracting := [0]
  lhsBatch := []
  rhsBatch := []
  wf := dot_S4096x50_S128x50_S4096x128_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x2x50x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x2x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x2x128x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S2x2x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S4096x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x128 : Shape := ⟨2, ![262144, 128]⟩
abbrev S2x2x50x64 : Shape := ⟨4, ![2, 2, 50, 64]⟩
abbrev S2x2x50 : Shape := ⟨3, ![2, 2, 50]⟩
abbrev S2x2x64x50 : Shape := ⟨4, ![2, 2, 64, 50]⟩
abbrev S2x2x64 : Shape := ⟨3, ![2, 2, 64]⟩
abbrev S_ : Shape := ⟨0, ![]⟩
abbrev S262144 : Shape := ⟨1, ![262144]⟩
abbrev S262144x64 : Shape := ⟨2, ![262144, 64]⟩
abbrev S1x1x50x64 : Shape := ⟨4, ![1, 1, 50, 64]⟩
abbrev S50x64 : Shape := ⟨2, ![50, 64]⟩
abbrev S1x1x50 : Shape := ⟨3, ![1, 1, 50]⟩
abbrev S50 : Shape := ⟨1, ![50]⟩
abbrev S1x1x64x50 : Shape := ⟨4, ![1, 1, 64, 50]⟩
abbrev S64x50 : Shape := ⟨2, ![64, 50]⟩
abbrev S1x1x64 : Shape := ⟨3, ![1, 1, 64]⟩
abbrev S64 : Shape := ⟨1, ![64]⟩
abbrev S262144x50 : Shape := ⟨2, ![262144, 50]⟩
abbrev S1x50 : Shape := ⟨2, ![1, 50]⟩
abbrev S1x64 : Shape := ⟨2, ![1, 64]⟩

abbrev nBuf : Space → Nat
  | .hbm => 207
  | .vmem => 0
  | .smem => 0
  | _ => 0

abbrev hbmTy0_0 (i : Nat) : BufTy := match i % 128 with
  | 0 => ⟨S262144x128, .f32⟩
  | 1 => ⟨S262144x128, .f32⟩
  | 2 => ⟨S262144x128, .f32⟩
  | 3 => ⟨S2x2x50x64, .f32⟩
  | 4 => ⟨S2x2x50, .f32⟩
  | 5 => ⟨S2x2x64x50, .f32⟩
  | 6 => ⟨S2x2x64, .f32⟩
  | 7 => ⟨S2x2x64x50, .f32⟩
  | 8 => ⟨S2x2x64, .f32⟩
  | 9 => ⟨S_, .f32⟩
  | 10 => ⟨S262144x128, .f32⟩
  | 11 => ⟨S262144x128, .f32⟩
  | 12 => ⟨S262144x128, .f32⟩
  | 13 => ⟨S262144x128, .f32⟩
  | 14 => ⟨S262144x128, .f32⟩
  | 15 => ⟨S_, .f32⟩
  | 16 => ⟨S262144, .f32⟩
  | 17 => ⟨S262144x128, .f32⟩
  | 18 => ⟨S262144x128, .f32⟩
  | 19 => ⟨S262144x128, .f32⟩
  | 20 => ⟨S262144x128, .f32⟩
  | 21 => ⟨S_, .f32⟩
  | 22 => ⟨S262144, .f32⟩
  | 23 => ⟨S262144, .f32⟩
  | 24 => ⟨S_, .f32⟩
  | 25 => ⟨S262144, .f32⟩
  | 26 => ⟨S262144, .f32⟩
  | 27 => ⟨S262144x64, .f32⟩
  | 28 => ⟨S262144x64, .f32⟩
  | 29 => ⟨S_, .f32⟩
  | 30 => ⟨S262144, .f32⟩
  | 31 => ⟨S1x1x50x64, .f32⟩
  | 32 => ⟨S50x64, .f32⟩
  | 33 => ⟨S1x1x50, .f32⟩
  | 34 => ⟨S50, .f32⟩
  | 35 => ⟨S1x1x64x50, .f32⟩
  | 36 => ⟨S64x50, .f32⟩
  | 37 => ⟨S1x1x64, .f32⟩
  | 38 => ⟨S64, .f32⟩
  | 39 => ⟨S1x1x64x50, .f32⟩
  | 40 => ⟨S64x50, .f32⟩
  | 41 => ⟨S1x1x64, .f32⟩
  | 42 => ⟨S64, .f32⟩
  | 43 => ⟨S64x50, .f32⟩
  | 44 => ⟨S262144x50, .f32⟩
  | 45 => ⟨S1x50, .f32⟩
  | 46 => ⟨S262144x50, .f32⟩
  | 47 => ⟨S262144x50, .f32⟩
  | 48 => ⟨S262144x50, .f32⟩
  | 49 => ⟨S50x64, .f32⟩
  | 50 => ⟨S262144x64, .f32⟩
  | 51 => ⟨S1x64, .f32⟩
  | 52 => ⟨S262144x64, .f32⟩
  | 53 => ⟨S262144x64, .f32⟩
  | 54 => ⟨S50x64, .f32⟩
  | 55 => ⟨S262144x64, .f32⟩
  | 56 => ⟨S1x64, .f32⟩
  | 57 => ⟨S262144x64, .f32⟩
  | 58 => ⟨S262144x64, .f32⟩
  | 59 => ⟨S262144x64, .f32⟩
  | 60 => ⟨S262144x64, .f32⟩
  | 61 => ⟨S_, .f32⟩
  | 62 => ⟨S262144x64, .f32⟩
  | 63 => ⟨S262144x64, .f32⟩
  | 64 => ⟨S_, .f32⟩
  | 65 => ⟨S262144x64, .f32⟩
  | 66 => ⟨S262144x64, .f32⟩
  | 67 => ⟨S262144x64, .f32⟩
  | 68 => ⟨S262144x64, .f32⟩
  | 69 => ⟨S262144x64, .f32⟩
  | 70 => ⟨S_, .f32⟩
  | 71 => ⟨S262144, .f32⟩
  | 72 => ⟨S262144, .f32⟩
  | 73 => ⟨S1x1x50x64, .f32⟩
  | 74 => ⟨S50x64, .f32⟩
  | 75 => ⟨S1x1x50, .f32⟩
  | 76 => ⟨S50, .f32⟩
  | 77 => ⟨S1x1x64x50, .f32⟩
  | 78 => ⟨S64x50, .f32⟩
  | 79 => ⟨S1x1x64, .f32⟩
  | 80 => ⟨S64, .f32⟩
  | 81 => ⟨S1x1x64x50, .f32⟩
  | 82 => ⟨S64x50, .f32⟩
  | 83 => ⟨S1x1x64, .f32⟩
  | 84 => ⟨S64, .f32⟩
  | 85 => ⟨S64x50, .f32⟩
  | 86 => ⟨S262144x50, .f32⟩
  | 87 => ⟨S1x50, .f32⟩
  | 88 => ⟨S262144x50, .f32⟩
  | 89 => ⟨S262144x50, .f32⟩
  | 90 => ⟨S262144x50, .f32⟩
  | 91 => ⟨S50x64, .f32⟩
  | 92 => ⟨S262144x64, .f32⟩
  | 93 => ⟨S1x64, .f32⟩
  | 94 => ⟨S262144x64, .f32⟩
  | 95 => ⟨S262144x64, .f32⟩
  | 96 => ⟨S50x64, .f32⟩
  | 97 => ⟨S262144x64, .f32⟩
  | 98 => ⟨S1x64, .f32⟩
  | 99 => ⟨S262144x64, .f32⟩
  | 100 => ⟨S262144x64, .f32⟩
  | 101 => ⟨S262144x64, .f32⟩
  | 102 => ⟨S262144x64, .f32⟩
  | 103 => ⟨S_, .f32⟩
  | 104 => ⟨S262144x64, .f32⟩
  | 105 => ⟨S262144x64, .f32⟩
  | 106 => ⟨S_, .f32⟩
  | 107 => ⟨S262144x64, .f32⟩
  | 108 => ⟨S262144x64, .f32⟩
  | 109 => ⟨S262144x64, .f32⟩
  | 110 => ⟨S262144x64, .f32⟩
  | 111 => ⟨S262144x64, .f32⟩
  | 112 => ⟨S_, .f32⟩
  | 113 => ⟨S262144, .f32⟩
  | 114 => ⟨S262144, .f32⟩
  | 115 => ⟨S1x1x50x64, .f32⟩
  | 116 => ⟨S50x64, .f32⟩
  | 117 => ⟨S1x1x50, .f32⟩
  | 118 => ⟨S50, .f32⟩
  | 119 => ⟨S1x1x64x50, .f32⟩
  | 120 => ⟨S64x50, .f32⟩
  | 121 => ⟨S1x1x64, .f32⟩
  | 122 => ⟨S64, .f32⟩
  | 123 => ⟨S1x1x64x50, .f32⟩
  | 124 => ⟨S64x50, .f32⟩
  | 125 => ⟨S1x1x64, .f32⟩
  | 126 => ⟨S64, .f32⟩
  | 127 => ⟨S64x50, .f32⟩
  | _ => ⟨S262144x128, .f32⟩

abbrev hbmTy0_1 (i : Nat) : BufTy := match i % 128 with
  | 0 => ⟨S262144x50, .f32⟩
  | 1 => ⟨S1x50, .f32⟩
  | 2 => ⟨S262144x50, .f32⟩
  | 3 => ⟨S262144x50, .f32⟩
  | 4 => ⟨S262144x50, .f32⟩
  | 5 => ⟨S50x64, .f32⟩
  | 6 => ⟨S262144x64, .f32⟩
  | 7 => ⟨S1x64, .f32⟩
  | 8 => ⟨S262144x64, .f32⟩
  | 9 => ⟨S262144x64, .f32⟩
  | 10 => ⟨S50x64, .f32⟩
  | 11 => ⟨S262144x64, .f32⟩
  | 12 => ⟨S1x64, .f32⟩
  | 13 => ⟨S262144x64, .f32⟩
  | 14 => ⟨S262144x64, .f32⟩
  | 15 => ⟨S262144x64, .f32⟩
  | 16 => ⟨S262144x64, .f32⟩
  | 17 => ⟨S_, .f32⟩
  | 18 => ⟨S262144x64, .f32⟩
  | 19 => ⟨S262144x64, .f32⟩
  | 20 => ⟨S_, .f32⟩
  | 21 => ⟨S262144x64, .f32⟩
  | 22 => ⟨S262144x64, .f32⟩
  | 23 => ⟨S262144x64, .f32⟩
  | 24 => ⟨S262144x64, .f32⟩
  | 25 => ⟨S262144x64, .f32⟩
  | 26 => ⟨S_, .f32⟩
  | 27 => ⟨S262144, .f32⟩
  | 28 => ⟨S262144, .f32⟩
  | 29 => ⟨S1x1x50x64, .f32⟩
  | 30 => ⟨S50x64, .f32⟩
  | 31 => ⟨S1x1x50, .f32⟩
  | 32 => ⟨S50, .f32⟩
  | 33 => ⟨S1x1x64x50, .f32⟩
  | 34 => ⟨S64x50, .f32⟩
  | 35 => ⟨S1x1x64, .f32⟩
  | 36 => ⟨S64, .f32⟩
  | 37 => ⟨S1x1x64x50, .f32⟩
  | 38 => ⟨S64x50, .f32⟩
  | 39 => ⟨S1x1x64, .f32⟩
  | 40 => ⟨S64, .f32⟩
  | 41 => ⟨S64x50, .f32⟩
  | 42 => ⟨S262144x50, .f32⟩
  | 43 => ⟨S1x50, .f32⟩
  | 44 => ⟨S262144x50, .f32⟩
  | 45 => ⟨S262144x50, .f32⟩
  | 46 => ⟨S262144x50, .f32⟩
  | 47 => ⟨S50x64, .f32⟩
  | 48 => ⟨S262144x64, .f32⟩
  | 49 => ⟨S1x64, .f32⟩
  | 50 => ⟨S262144x64, .f32⟩
  | 51 => ⟨S262144x64, .f32⟩
  | 52 => ⟨S50x64, .f32⟩
  | 53 => ⟨S262144x64, .f32⟩
  | 54 => ⟨S1x64, .f32⟩
  | 55 => ⟨S262144x64, .f32⟩
  | 56 => ⟨S262144x64, .f32⟩
  | 57 => ⟨S262144x64, .f32⟩
  | 58 => ⟨S262144x64, .f32⟩
  | 59 => ⟨S_, .f32⟩
  | 60 => ⟨S262144x64, .f32⟩
  | 61 => ⟨S262144x64, .f32⟩
  | 62 => ⟨S_, .f32⟩
  | 63 => ⟨S262144x64, .f32⟩
  | 64 => ⟨S262144x64, .f32⟩
  | 65 => ⟨S262144x64, .f32⟩
  | 66 => ⟨S262144x64, .f32⟩
  | 67 => ⟨S262144x64, .f32⟩
  | 68 => ⟨S_, .f32⟩
  | 69 => ⟨S262144, .f32⟩
  | 70 => ⟨S262144, .f32⟩
  | 71 => ⟨S262144x128, .f32⟩
  | 72 => ⟨S262144, .f32⟩
  | 73 => ⟨S262144x128, .f32⟩
  | 74 => ⟨S_, .f32⟩
  | 75 => ⟨S262144, .f32⟩
  | 76 => ⟨S_, .f32⟩
  | 77 => ⟨S262144, .f32⟩
  | 78 => ⟨S262144, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_7 : Ref sig .tc := ⟨.hbm, 103, rfl⟩
abbrev main_v86 : Ref sig .tc := ⟨.hbm, 104, rfl⟩
abbrev main_v87 : Ref sig .tc := ⟨.hbm, 105, rfl⟩
abbrev main_cst_8 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_9 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_12 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_cst_13 : Ref sig .tc := ⟨.hbm, 187, rfl⟩
abbrev main_v164 : Ref sig .tc := ⟨.hbm, 188, rfl⟩
abbrev main_v165 : Ref sig .tc := ⟨.hbm, 189, rfl⟩
abbrev main_cst_14 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_cst_15 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_cst_16 : Ref sig .tc := ⟨.hbm, 202, rfl⟩
abbrev main_v176 : Ref sig .tc := ⟨.hbm, 203, rfl⟩
abbrev main_cst_17 : Ref sig .tc := ⟨.hbm, 204, rfl⟩
abbrev main_v177 : Ref sig .tc := ⟨.hbm, 205, rfl⟩
abbrev main_v178 : Ref sig .tc := ⟨.hbm, 206, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  reducesTo_S262144x128_S262144_d1 : S262144x128.ReducesTo [1] S262144
  h_S_ : 0 < S_.numel
  bcast_S_S262144 : S_.BroadcastsInDim S262144 (![] : Fin 0 → Fin S262144.rank)
  slices_S262144x128_S262144x64_0_0 : S262144x128.Slices ![0, 0] S262144x64
  slices_S262144x128_S262144x64_0_64 : S262144x128.Slices ![0, 64] S262144x64
  slices_S2x2x50x64_S1x1x50x64_0_0_0_0 : S2x2x50x64.Slices ![0, 0, 0, 0] S1x1x50x64
  shapeCasts_S1x1x50x64_S50x64 : S1x1x50x64.ShapeCasts S50x64
  slices_S2x2x50_S1x1x50_0_0_0 : S2x2x50.Slices ![0, 0, 0] S1x1x50
  shapeCasts_S1x1x50_S50 : S1x1x50.ShapeCasts S50
  slices_S2x2x64x50_S1x1x64x50_0_0_0_0 : S2x2x64x50.Slices ![0, 0, 0, 0] S1x1x64x50
  shapeCasts_S1x1x64x50_S64x50 : S1x1x64x50.ShapeCasts S64x50
  slices_S2x2x64_S1x1x64_0_0_0 : S2x2x64.Slices ![0, 0, 0] S1x1x64
  shapeCasts_S1x1x64_S64 : S1x1x64.ShapeCasts S64
  transposes_S50x64_S64x50_1_0 : S50x64.Transposes [1, 0] S64x50
  bcast_S50_S1x50_1 : S50.BroadcastsInDim S1x50 (![1] : Fin 1 → Fin S1x50.rank)
  bcast_S1x50_S262144x50_0_1 : S1x50.BroadcastsInDim S262144x50 (![0, 1] : Fin 2 → Fin S262144x50.rank)
  transposes_S64x50_S50x64_1_0 : S64x50.Transposes [1, 0] S50x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  reducesTo_S262144x64_S262144_d1 : S262144x64.ReducesTo [1] S262144
  slices_S2x2x50x64_S1x1x50x64_0_1_0_0 : S2x2x50x64.Slices ![0, 1, 0, 0] S1x1x50x64
  slices_S2x2x50_S1x1x50_0_1_0 : S2x2x50.Slices ![0, 1, 0] S1x1x50
  slices_S2x2x64x50_S1x1x64x50_0_1_0_0 : S2x2x64x50.Slices ![0, 1, 0, 0] S1x1x64x50
  slices_S2x2x64_S1x1x64_0_1_0 : S2x2x64.Slices ![0, 1, 0] S1x1x64
  slices_S2x2x50x64_S1x1x50x64_1_0_0_0 : S2x2x50x64.Slices ![1, 0, 0, 0] S1x1x50x64
  slices_S2x2x50_S1x1x50_1_0_0 : S2x2x50.Slices ![1, 0, 0] S1x1x50
  slices_S2x2x64x50_S1x1x64x50_1_0_0_0 : S2x2x64x50.Slices ![1, 0, 0, 0] S1x1x64x50
  slices_S2x2x64_S1x1x64_1_0_0 : S2x2x64.Slices ![1, 0, 0] S1x1x64
  slices_S2x2x50x64_S1x1x50x64_1_1_0_0 : S2x2x50x64.Slices ![1, 1, 0, 0] S1x1x50x64
  slices_S2x2x50_S1x1x50_1_1_0 : S2x2x50.Slices ![1, 1, 0] S1x1x50
  slices_S2x2x64x50_S1x1x64x50_1_1_0_0 : S2x2x64x50.Slices ![1, 1, 0, 0] S1x1x64x50
  slices_S2x2x64_S1x1x64_1_1_0 : S2x2x64.Slices ![1, 1, 0] S1x1x64
  concatenates_S262144x64_S262144x64_S262144x128_d1 : Shape.Concatenates [S262144x64, S262144x64] S262144x128 1
  dot_S262144x64_S64x50_S262144x50_1_0_0_1_n_n_wf : DotDims.WF S262144x64 S64x50 S262144x50 [1] [0] [0] [1] [] []
  dot_S262144x50_S50x64_S262144x64_1_0_0_1_n_n_wf : DotDims.WF S262144x50 S50x64 S262144x64 [1] [0] [0] [1] [] []

variable [Facts₀]

def dot_S262144x64_S64x50_S262144x50_1_0_0_1_n_n : DotDims S262144x64 S64x50 S262144x50 where
  lhsContracting := [1]
  rhsContracting := [0]
  lhsNonContracting := [0]
  rhsNonContracting := [1]
  lhsBatch := []
  rhsBatch := []
  wf := dot_S262144x64_S64x50_S262144x50_1_0_0_1_n_n_wf
def dot_S262144x50_S50x64_S262144x64_1_0_0_1_n_n : DotDims S262144x50 S50x64 S262144x64 where
  lhsContracting := [1]
  rhsContracting := [0]
  lhsNonContracting := [0]
  rhsNonContracting := [1]
  lhsBatch := []
  rhsBatch := []
  wf := dot_S262144x50_S50x64_S262144x64_1_0_0_1_n_n_wf

class Facts : Prop extends Facts₀ where

variable [Facts]
-- ==== Proof.FlowRow.lean ====
/-
  The normalizing-flow sampler, one batch row at a time.

  Every output row depends on the same row of mean / logvar / eps and on the (shared) weights only:
    z      = eps · exp(½·logvar) + mean,  split into halves z1 | z2;
    four coupling steps (flow i = 0, 1; half c = 0, 1), each from the half x it reads:
      h    = tanh (W_in[i,c] x + b_in[i,c])               (50 hidden units)
      mu   = W_mu[i,c] h + b_mu[i,c],   s = W_sig[i,c] h + b_sig[i,c]   (64 each)
      other half  ←  other · sigmoid(s) + mu,    logdet ← logdet + Σ_j log sigmoid(s_j);
    outputs: z1 | z2,   logpz = −½ Σ z²,   logqz = −½(Σ logvar + Σ (z−mean)²/exp(logvar)) − logdet.
  This file states those row functions over the extended reals, in the spelling the reference uses and in the
  spelling the kernel uses (mu and s read off ONE 128-wide affine map; log sigmoid(s) as −softplus(−s);
  (z−mean)²/exp(logvar) as eps²), and the laws that join the two on real entries.
-/
import Idealize.ShloMosaic.PureOps.Ideal
import Idealize.ShloMosaic.Lib.ValueIdx
import Mathlib.Analysis.SpecialFunctions.Log.Basic
import Mathlib.Analysis.SpecialFunctions.Exp

open scoped BigOperators
open Idealize.ShloMosaic Idealize.ShloMosaic.ValueIdx

noncomputable section

namespace Cert.Flow

/-- Row r of a matrix, as a function of the column. -/
def rowOf {M C : ℕ} (A : (⟨2, ![M, C]⟩ : Shape).Idx → EReal) (r : Fin M) : Fin C → EReal := fun q => A (ix2 r q)

/-- Entry r of a vector. -/
def at1 {M : ℕ} (a : (⟨1, ![M]⟩ : Shape).Idx → EReal) (r : Fin M) : EReal := a (ix1 r)

/-- A weight matrix / vector read by coordinates; a [1,1,a,b] / [1,1,a] block likewise; block (p, q) of a [2,2,a,b] / [2,2,a] stack. -/
def mat {a b : ℕ} (w : (⟨2, ![a, b]⟩ : Shape).Idx → EReal) : Fin a → Fin b → EReal := fun n k => w (ix2 n k)
def vec {a : ℕ} (w : (⟨1, ![a]⟩ : Shape).Idx → EReal) : Fin a → EReal := fun n => w (ix1 n)
def mat4 {a b : ℕ} (w : (⟨4, ![1, 1, a, b]⟩ : Shape).Idx → EReal) : Fin a → Fin b → EReal := fun n k => w (ix4 (0 : Fin 1) (0 : Fin 1) n k)
def vec3 {a : ℕ} (w : (⟨3, ![1, 1, a]⟩ : Shape).Idx → EReal) : Fin a → EReal := fun n => w (ix3 (0 : Fin 1) (0 : Fin 1) n)
def w4 {a b : ℕ} (A : (⟨4, ![2, 2, a, b]⟩ : Shape).Idx → EReal) (p q : Fin 2) : Fin a → Fin b → EReal := fun n k => A (ix4 p q n k)
def w3 {a : ℕ} (A : (⟨3, ![2, 2, a]⟩ : Shape).Idx → EReal) (p q : Fin 2) : Fin a → EReal := fun n => A (ix3 p q n)

/-- An affine map of a row: (W x + b)_n = Σ_k x_k · W_{n,k} + b_n. -/
def lin {K N : ℕ} (W : Fin N → Fin K → EReal) (b : Fin N → EReal) (x : Fin K → EReal) (n : Fin N) : EReal :=
  (∑ k, x k * W n k) + b n

/-- The hidden layer of a coupling step. -/
def hid {K N : ℕ} (W : Fin N → Fin K → EReal) (b : Fin N → EReal) (x : Fin K → EReal) (n : Fin N) : EReal :=
  Ideal.tanh (lin W b x n)

/-- The left half of a 128-wide row. -/
def lo (j : Fin 64) : Fin 128 := ⟨j.val, by omega⟩
/-- The right half of a 128-wide row. -/
def hi (j : Fin 64) : Fin 128 := ⟨64 + j.val, by omega⟩

/-- The reparameterized sample of one row. -/
def zrow (half : EReal) (m l e : Fin 128 → EReal) (j : Fin 128) : EReal := e j * Ideal.exp (half * l j) + m j

/-- One coupling update of the half that is not read: other · sigmoid(s) + mu. -/
def upd (other mu s : Fin 64 → EReal) (j : Fin 64) : EReal := other j * Ideal.logistic (s j) + mu j

/-- The reference's log-determinant term of a step: Σ_j log sigmoid(s_j), summed from the initial value 0. -/
def ldR (zero : EReal) (s : Fin 64 → EReal) : EReal := zero + ∑ j, Ideal.log (Ideal.logistic (s j))

/-- softplus(−s) as the kernel computes it: max(−s, 0) + log1p(exp(−|−s|)), with −s spelt 0 − s. -/
def sp (zero s : EReal) : EReal :=
  max (zero - s) zero + Ideal.log1p (Ideal.exp (zero - max (zero - s - zero) (-(zero - s - zero))))

/-- The kernel's log-determinant term of a step: 0 − Σ_j softplus(−s_j). -/
def ldK (zero : EReal) (s : Fin 64 → EReal) : EReal := zero - ∑ j, sp zero (s j)

/-- A coupling update read off the fused 128-wide affine output Y: mu is its left half, s its right half. -/
def updY (other : Fin 64 → EReal) (Y : Fin 128 → EReal) : Fin 64 → EReal :=
  upd other (fun j => Y (lo j)) (fun j => Y (hi j))

/-- The two halves side by side. -/
def cat (a b : Fin 64 → EReal) (j : Fin 128) : EReal :=
  if h : j.val < 64 then a ⟨j.val, h⟩ else b ⟨j.val - 64, by omega⟩

end Cert.Flow

end
-- ==== Proof.FlowLayout.lean ====
/-
  Layout operations of this kernel and its reference, read at an index: the two column halves of a 128-wide matrix,
  two halves set side by side, a [1,1,a,b] or [1,1,a] weight block read as a matrix or a vector, a weight block cut out
  of the [2,2,·,·] stack, a bias row broadcast down the batch, a scalar constant broadcast, and the host's row sum.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«102729_j7464653160938_2_alg».proof.Proof.FlowRow

open scoped BigOperators
open Idealize.ShloMosaic Idealize.ShloMosaic.ValueIdx

noncomputable section

namespace Cert.Flow

variable {α : Type}

/-- Columns 0..63 of a 128-wide matrix. -/
theorem slice_lo {M : ℕ} (X : (⟨2, ![M, 128]⟩ : Shape).Idx → α) (h : (⟨2, ![M, 128]⟩ : Shape).Slices ![0, 0] ⟨2, ![M, 64]⟩)
    (r : Fin M) (j : Fin 64) : extractStridedSlice ⟨2, ![M, 64]⟩ ![0, 0] X h (ix2 r j) = X (ix2 r (lo j)) :=
  slice2_axis1_apply 0 X h r j (lo j) (by show j.val = 0 + j.val; omega)

/-- Columns 64..127 of a 128-wide matrix. -/
theorem slice_hi {M : ℕ} (X : (⟨2, ![M, 128]⟩ : Shape).Idx → α) (h : (⟨2, ![M, 128]⟩ : Shape).Slices ![0, 64] ⟨2, ![M, 64]⟩)
    (r : Fin M) (j : Fin 64) : extractStridedSlice ⟨2, ![M, 64]⟩ ![0, 64] X h (ix2 r j) = X (ix2 r (hi j)) :=
  slice2_axis1_apply 64 X h r j (hi j) rfl

/-- A [1,1,a,b] block read as an [a,b] matrix. -/
theorem cast_11ab {a b : ℕ} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show (((0 * 1 + 0) * a + i.val) * b + j.val) = i.val * b + j.val
    simp only [Nat.zero_mul, Nat.zero_add])

/-- A [1,1,a] block read as a vector. -/
theorem cast_11a {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show ((0 * 1 + 0) * a + i.val) = i.val
    simp only [Nat.zero_mul, Nat.zero_add])

/-- A bias vector laid as a row and repeated down M rows. -/
theorem bias_rows {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (n : Fin N) :
    broadcastTo ⟨2, ![M, N]⟩ (shapeCast ⟨2, ![1, N]⟩ b h1) h2 (ix2 r n) = b (ix1 n) := by
  rw [broadcastTo_1b_ab_apply, shapeCast_a_1a_apply]

/-- Two 64-wide matrices set side by side, row by row. -/
theorem cat_rows {M : ℕ} (x y : (⟨2, ![M, 64]⟩ : Shape).Idx → EReal)
    (h : Shape.Concatenates [⟨2, ![M, 64]⟩, ⟨2, ![M, 64]⟩] ⟨2, ![M, 128]⟩ (1 : Fin 2)) (r : Fin M) (j : Fin 128) :
    concatenate ⟨2, ![M, 128]⟩ (1 : Fin 2) [⟨⟨2, ![M, 64]⟩, x⟩, ⟨⟨2, ![M, 64]⟩, y⟩] h (ix2 r j) = cat (rowOf x r) (rowOf y r) j := by
  unfold cat rowOf
  split_ifs with hj
  · exact concatenate_pair_apply_left (1 : Fin 2) x y h (ix2 r j) rfl (ix2 r ⟨j.val, hj⟩)
      (fun b => by match b with | ⟨0, _⟩ => rfl | ⟨1, _⟩ => rfl)
  · exact concatenate_pair_apply_right (1 : Fin 2) x y h (ix2 r j) rfl rfl (ix2 r ⟨j.val - 64, by omega⟩)
      (fun b hb => by match b with | ⟨0, _⟩ => rfl | ⟨1, _⟩ => exact absurd rfl hb)
      (by show (j.val - 64) + 64 = j.val; omega)

end Cert.Flow

end
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.KernelRows.lean ====
/-
  The kernel body's staged values, one batch row at a time: row r of each value the body computes is the row function
  of FlowRow applied to row r of the values it was computed from (and to the weight blocks, read whole).
-/
import proofs.«102729_j7464653160938_2_alg».proof.Proof.Gen.KernelIdeal.Skeleton
import proofs.«102729_j7464653160938_2_alg».proof.Proof.FlowLayout
import proofs.«102729_j7464653160938_2_alg».proof.Proof.LibRowDot
import proofs.«102729_j7464653160938_2_alg».proof.Proof.LibSumsAtIndex

open scoped BigOperators
open Idealize.ShloMosaic Idealize.ShloMosaic.ValueIdx Cert.Flow

noncomputable section

namespace Cert.KernelIdeal.Rows

open Cert.KernelIdeal Cert.KernelIdeal.Gen

variable [Cert.KernelIdeal.Facts]

/-- ½ and −½ and 0 as the body's literals read them. -/
abbrev half : EReal := Ideal.ofBits .f32 0x3F000000#32
abbrev mhalf : EReal := Ideal.ofBits .f32 0xBF000000#32
abbrev zero : EReal := Ideal.ofBits .f32 0x00000000#32

theorem row_pay4 (v0 v1 v2 : Vec Ideal S4096x128 .f32) (r : Fin 4096) :
    rowOf (k0_pay4 v0 v1 v2) r = fun j => zrow half (rowOf v0 r) (rowOf v1 r) (rowOf v2 r) (lo j) := by
  funext j
  unfold rowOf k0_pay4
  rw [slice_lo]
  rfl

theorem row_pay5 (v0 v1 v2 : Vec Ideal S4096x128 .f32) (r : Fin 4096) :
    rowOf (k0_pay5 v0 v1 v2) r = fun j => zrow half (rowOf v0 r) (rowOf v1 r) (rowOf v2 r) (hi j) := by
  funext j
  unfold rowOf k0_pay5
  rw [slice_hi]
  rfl

theorem row_pay3 (v1 v2 : Vec Ideal S4096x128 .f32) (r : Fin 4096) :
    at1 (k0_pay3 v1 v2) r = mhalf * ((∑ j, rowOf v1 r j) + ∑ j, rowOf v2 r j * rowOf v2 r j) := by
  unfold at1 k0_pay3
  show mhalf * (_ + _) = _
  exact congrArg (mhalf * ·) (congrArg₂ (· + ·) (SumsAtIndex.rowsum_apply (a := 4096) (b := 128) v1 _ _ _ _ r)
    (SumsAtIndex.rowsum_apply (a := 4096) (b := 128) (mulf v2 v2) _ _ _ _ r))

theorem row_pay1 (v203 : FVec Ideal S4096x128 .f32) (r : Fin 4096) :
    at1 (k0_pay1 v203) r = mhalf * ∑ j, rowOf v203 r j := by
  unfold at1 k0_pay1
  show mhalf * _ = _
  exact congrArg (mhalf * ·) (SumsAtIndex.rowsum_apply (a := 4096) (b := 128) v203 _ _ _ _ r)

theorem row_pay10 (v22 : FVec Ideal S128x50 .f32) (v24 : FVec Ideal S128 .f32) (v32 : FVec Ideal S4096x50 .bf16) (r : Fin 4096) :
    rowOf (k0_pay10 v22 v24 v32) r = lin (mat v22) (vec v24) (rowOf v32 r) := by
  funext n
  unfold rowOf k0_pay10
  show _ + _ = _
  rw [RowDot.matmul_zero_apply dot_S4096x50_S128x50_S4096x128_1_1_0_0_n_n rfl rfl rfl rfl rfl rfl, bias_rows]
  rfl

theorem row_pay9 (v0 v1 v2 : Vec Ideal S4096x128 .f32) (v17 : Vec Ideal S1x1x50x64 .f32) (v19 : Vec Ideal S1x1x50 .f32) (r : Fin 4096) :
    rowOf (k0_pay9 v0 v1 v2 v17 v19) r = hid (mat4 v17) (vec3 v19) (rowOf (k0_pay4 v0 v1 v2) r) := by
  funext n
  unfold rowOf k0_pay9
  show Ideal.tanh (_ + _) = _
  rw [RowDot.matmul_zero_apply dot_S4096x64_S50x64_S4096x50_1_1_0_0_n_n rfl rfl rfl rfl rfl rfl, bias_rows, cast_11a]
  unfold hid lin
  congr 2
  refine Finset.sum_congr rfl fun k _ => ?_
  show _ * shapeCast _ v17 _ (ix2 n k) = _
  rw [cast_11ab]
  rfl

/-! ### The weight blocks, cast to matrices and vectors -/

theorem mat_pay7 (v : Vec Ideal S1x1x128x50 .f32) : mat (k0_pay7 v) = mat4 v := by
  funext n k; unfold mat mat4 k0_pay7; exact cast_11ab _ _ n k
theorem mat_pay15 (v : Vec Ideal S1x1x128x50 .f32) : mat (k0_pay15 v) = mat4 v := by
  funext n k; unfold mat mat4 k0_pay15; exact cast_11ab _ _ n k
theorem mat_pay25 (v : Vec Ideal S1x1x128x50 .f32) : mat (k0_pay25 v) = mat4 v := by
  funext n k; unfold mat mat4 k0_pay25; exact cast_11ab _ _ n k
theorem mat_pay18 (v : Vec Ideal S1x1x50x64 .f32) : mat (k0_pay18 v) = mat4 v := by
  funext n k; unfold mat mat4 k0_pay18; exact cast_11ab _ _ n k
theorem mat_pay23 (v : Vec Ideal S1x1x50x64 .f32) : mat (k0_pay23 v) = mat4 v := by
  funext n k; unfold mat mat4 k0_pay23; exact cast_11ab _ _ n k
theorem mat_pay30 (v : Vec Ideal S1x1x50x64 .f32) : mat (k0_pay30 v) = mat4 v := by
  funext n k; unfold mat mat4 k0_pay30; exact cast_11ab _ _ n k
theorem vec_pay8 (v : Vec Ideal S1x1x128 .f32) : vec (k0_pay8 v) = vec3 v := by
  funext n; unfold vec vec3 k0_pay8; exact cast_11a _ _ n
theorem vec_pay16 (v : Vec Ideal S1x1x128 .f32) : vec (k0_pay16 v) = vec3 v := by
  funext n; unfold vec vec3 k0_pay16; exact cast_11a _ _ n
theorem vec_pay14 (v : Vec Ideal S1x1x50 .f32) : vec (k0_pay14 v) = vec3 v := by
  funext n; unfold vec vec3 k0_pay14; exact cast_11a _ _ n
theorem vec_pay24 (v : Vec Ideal S1x1x50 .f32) : vec (k0_pay24 v) = vec3 v := by
  funext n; unfold vec vec3 k0_pay24; exact cast_11a _ _ n

/-! ### softplus(−s) as the body spells it -/

theorem sel_sp (s : EReal) :
    Scalar.select (Ideal.cmp .one (zero - s - zero) (zero - s - zero)) (zero - s + zero)
      (max (zero - s) zero + Ideal.log1p (Ideal.exp (zero - max (zero - s - zero) (-(zero - s - zero))))) = sp zero s := by
  unfold Scalar.select Ideal.cmp sp
  simp

/-! ### The affine maps with their hidden layers -/

theorem row_pay19 (v66 : FVec Ideal S50 .f32) (v68 : FVec Ideal S128x50 .f32) (v70 : FVec Ideal S128 .f32)
    (v71 : FVec Ideal S4096x64 .bf16) (v72 : FVec Ideal S50x64 .bf16) (r : Fin 4096) :
    rowOf (k0_pay19 v66 v68 v70 v71 v72) r = lin (mat v68) (vec v70) (hid (mat v72) (vec v66) (rowOf v71 r)) := by
  funext n
  unfold rowOf k0_pay19
  show _ + _ = _
  rw [RowDot.matmul_zero_apply dot_S4096x50_S128x50_S4096x128_1_1_0_0_n_n rfl rfl rfl rfl rfl rfl, bias_rows]
  unfold lin
  congr 1
  refine Finset.sum_congr rfl fun k _ => ?_
  congr 1
  show Ideal.tanh (_ + _) = _
  rw [RowDot.matmul_zero_apply dot_S4096x64_S50x64_S4096x50_1_1_0_0_n_n rfl rfl rfl rfl rfl rfl, bias_rows]
  rfl

theorem row_pay26 (v107 : FVec Ideal S4096x64 .f32) (v110 : FVec Ideal S50x64 .f32) (v112 : FVec Ideal S50 .f32)
    (v114 : FVec Ideal S128x50 .f32) (v115 : Vec Ideal S1x1x128 .f32) (r : Fin 4096) :
    rowOf (k0_pay26 v107 v110 v112 v114 v115) r = lin (mat v114) (vec3 v115) (hid (mat v110) (vec v112) (rowOf v107 r)) := by
  funext n
  unfold rowOf k0_pay26
  show _ + _ = _
  rw [RowDot.matmul_zero_apply dot_S4096x50_S128x50_S4096x128_1_1_0_0_n_n rfl rfl rfl rfl rfl rfl, bias_rows, cast_11a]
  unfold lin
  congr 1
  refine Finset.sum_congr rfl fun k _ => ?_
  congr 1
  show Ideal.tanh (_ + _) = _
  rw [RowDot.matmul_zero_apply dot_S4096x64_S50x64_S4096x50_1_1_0_0_n_n rfl rfl rfl rfl rfl rfl, bias_rows]
  rfl

theorem row_pay31 (v153 : FVec Ideal S4096x64 .f32) (v156 : FVec Ideal S50x64 .f32) (v157 : Vec Ideal S1x1x50 .f32)
    (v159 : Vec Ideal S1x1x128x50 .f32) (v161 : Vec Ideal S1x1x128 .f32) (r : Fin 4096) :
    rowOf (k0_pay31 v153 v156 v157 v159 v161) r = lin (mat4 v159) (vec3 v161) (hid (mat v156) (vec3 v157) (rowOf v153 r)) := by
  funext n
  unfold rowOf k0_pay31
  show _ + _ = _
  rw [RowDot.matmul_zero_apply dot_S4096x50_S128x50_S4096x128_1_1_0_0_n_n rfl rfl rfl rfl rfl rfl, bias_rows, cast_11a]
  unfold lin
  congr 1
  refine Finset.sum_congr rfl fun k _ => ?_
  show Ideal.tanh (_ + _) * shapeCast _ v159 _ (ix2 n k) = _
  rw [RowDot.matmul_zero_apply dot_S4096x64_S50x64_S4096x50_1_1_0_0_n_n rfl rfl rfl rfl rfl rfl, bias_rows, cast_11a, cast_11ab]
  rfl

/-! ### The right half of each affine output (the sigmoid's argument) -/

theorem row_pay11 (a : FVec Ideal S128x50 .f32) (b : FVec Ideal S128 .f32) (c : FVec Ideal S4096x50 .bf16) (r : Fin 4096) :
    rowOf (k0_pay11 a b c) r = fun j => rowOf (k0_pay10 a b c) r (hi j) := by
  funext j; unfold rowOf k0_pay11; rw [slice_hi]
theorem row_pay20 (v66 : FVec Ideal S50 .f32) (v68 : FVec Ideal S128x50 .f32) (v70 : FVec Ideal S128 .f32)
    (v71 : FVec Ideal S4096x64 .bf16) (v72 : FVec Ideal S50x64 .bf16) (r : Fin 4096) :
    rowOf (k0_pay20 v66 v68 v70 v71 v72) r = fun j => rowOf (k0_pay19 v66 v68 v70 v71 v72) r (hi j) := by
  funext j; unfold rowOf k0_pay20; rw [slice_hi]
theorem row_pay27 (v107 : FVec Ideal S4096x64 .f32) (v110 : FVec Ideal S50x64 .f32) (v112 : FVec Ideal S50 .f32)
    (v114 : FVec Ideal S128x50 .f32) (v115 : Vec Ideal S1x1x128 .f32) (r : Fin 4096) :
    rowOf (k0_pay27 v107 v110 v112 v114 v115) r = fun j => rowOf (k0_pay26 v107 v110 v112 v114 v115) r (hi j) := by
  funext j; unfold rowOf k0_pay27; rw [slice_hi]
theorem row_pay32 (v153 : FVec Ideal S4096x64 .f32) (v156 : FVec Ideal S50x64 .f32) (v157 : Vec Ideal S1x1x50 .f32)
    (v159 : Vec Ideal S1x1x128x50 .f32) (v161 : Vec Ideal S1x1x128 .f32) (r : Fin 4096) :
    rowOf (k0_pay32 v153 v156 v157 v159 v161) r = fun j => rowOf (k0_pay31 v153 v156 v157 v159 v161) r (hi j) := by
  funext j; unfold rowOf k0_pay32; rw [slice_hi]

/-! ### The coupling updates -/

theorem row_pay12 (v15 : FVec Ideal S4096x64 .f32) (a : FVec Ideal S128x50 .f32) (b : FVec Ideal S128 .f32) (c : FVec Ideal S4096x50 .bf16) (r : Fin 4096) :
    rowOf (k0_pay12 v15 a b c) r = updY (rowOf v15 r) (rowOf (k0_pay10 a b c) r) := by
  funext j
  unfold rowOf k0_pay12
  have e : k0_pay11 a b c (ix2 r j) = k0_pay10 a b c (ix2 r (hi j)) := congrFun (row_pay11 a b c r) j
  show _ * Ideal.logistic (k0_pay11 a b c (ix2 r j)) + _ = _
  rw [e, slice_lo]
  rfl

theorem row_pay17 (v15 : FVec Ideal S4096x64 .f32) (a : FVec Ideal S128x50 .f32) (b : FVec Ideal S128 .f32) (c : FVec Ideal S4096x50 .bf16) (r : Fin 4096) :
    rowOf (k0_pay17 v15 a b c) r = rowOf (k0_pay12 v15 a b c) r := rfl

theorem row_pay21 (v14 : FVec Ideal S4096x64 .f32) (v66 : FVec Ideal S50 .f32) (v68 : FVec Ideal S128x50 .f32) (v70 : FVec Ideal S128 .f32)
    (v71 : FVec Ideal S4096x64 .bf16) (v72 : FVec Ideal S50x64 .bf16) (r : Fin 4096) :
    rowOf (k0_pay21 v14 v66 v68 v70 v71 v72) r = updY (rowOf v14 r) (rowOf (k0_pay19 v66 v68 v70 v71 v72) r) := by
  funext j
  unfold rowOf k0_pay21
  have e : k0_pay20 v66 v68 v70 v71 v72 (ix2 r j) = k0_pay19 v66 v68 v70 v71 v72 (ix2 r (hi j)) := congrFun (row_pay20 v66 v68 v70 v71 v72 r) j
  show _ * Ideal.logistic (k0_pay20 v66 v68 v70 v71 v72 (ix2 r j)) + _ = _
  rw [e, slice_lo]
  rfl

theorem row_pay28 (v61 v107 : FVec Ideal S4096x64 .f32) (v110 : FVec Ideal S50x64 .f32) (v112 : FVec Ideal S50 .f32)
    (v114 : FVec Ideal S128x50 .f32) (v115 : Vec Ideal S1x1x128 .f32) (r : Fin 4096) :
    rowOf (k0_pay28 v61 v107 v110 v112 v114 v115) r = updY (rowOf v61 r) (rowOf (k0_pay26 v107 v110 v112 v114 v115) r) := by
  funext j
  unfold rowOf k0_pay28
  have e : k0_pay27 v107 v110 v112 v114 v115 (ix2 r j) = k0_pay26 v107 v110 v112 v114 v115 (ix2 r (hi j)) := congrFun (row_pay27 v107 v110 v112 v114 v115 r) j
  show _ * Ideal.logistic (k0_pay27 v107 v110 v112 v114 v115 (ix2 r j)) + _ = _
  rw [e, slice_lo]
  rfl

/-! ### The log-determinant accumulators -/

theorem row_pay13 (v16 : FVec Ideal S4096 .f32) (a : FVec Ideal S128x50 .f32) (b : FVec Ideal S128 .f32) (c : FVec Ideal S4096x50 .bf16) (r : Fin 4096) :
    at1 (k0_pay13 v16 a b c) r = at1 v16 r + ldK zero (fun j => rowOf (k0_pay10 a b c) r (hi j)) := by
  unfold at1 k0_pay13 ldK
  show _ + (_ - _) = _
  refine congrArg (_ + ·) (congrArg (_ - ·) ?_)
  refine (SumsAtIndex.rowsum_apply (a := 4096) (b := 64) _ _ _ _ _ r).trans (Finset.sum_congr rfl fun j _ => ?_)
  exact (sel_sp _).trans (congrArg (sp zero) (congrFun (row_pay11 a b c r) j))

theorem row_pay22 (v62 : FVec Ideal S4096 .f32) (v66 : FVec Ideal S50 .f32) (v68 : FVec Ideal S128x50 .f32) (v70 : FVec Ideal S128 .f32)
    (v71 : FVec Ideal S4096x64 .bf16) (v72 : FVec Ideal S50x64 .bf16) (r : Fin 4096) :
    at1 (k0_pay22 v62 v66 v68 v70 v71 v72) r = at1 v62 r + ldK zero (fun j => rowOf (k0_pay19 v66 v68 v70 v71 v72) r (hi j)) := by
  unfold at1 k0_pay22 ldK
  show _ + (_ - _) = _
  refine congrArg (_ + ·) (congrArg (_ - ·) ?_)
  refine (SumsAtIndex.rowsum_apply (a := 4096) (b := 64) _ _ _ _ _ r).trans (Finset.sum_congr rfl fun j _ => ?_)
  exact (sel_sp _).trans (congrArg (sp zero) (congrFun (row_pay20 v66 v68 v70 v71 v72 r) j))

theorem row_pay29 (v107 : FVec Ideal S4096x64 .f32) (v108 : FVec Ideal S4096 .f32) (v110 : FVec Ideal S50x64 .f32) (v112 : FVec Ideal S50 .f32)
    (v114 : FVec Ideal S128x50 .f32) (v115 : Vec Ideal S1x1x128 .f32) (r : Fin 4096) :
    at1 (k0_pay29 v107 v108 v110 v112 v114 v115) r = at1 v108 r + ldK zero (fun j => rowOf (k0_pay26 v107 v110 v112 v114 v115) r (hi j)) := by
  unfold at1 k0_pay29 ldK
  show _ + (_ - _) = _
  refine congrArg (_ + ·) (congrArg (_ - ·) ?_)
  refine (SumsAtIndex.rowsum_apply (a := 4096) (b := 64) _ _ _ _ _ r).trans (Finset.sum_congr rfl fun j _ => ?_)
  exact (sel_sp _).trans (congrArg (sp zero) (congrFun (row_pay27 v107 v110 v112 v114 v115 r) j))

theorem row_pay34 (v13 : FVec Ideal S4096 .f32) (v153 : FVec Ideal S4096x64 .f32) (v154 : FVec Ideal S4096 .f32) (v156 : FVec Ideal S50x64 .f32)
    (v157 : Vec Ideal S1x1x50 .f32) (v159 : Vec Ideal S1x1x128x50 .f32) (v161 : Vec Ideal S1x1x128 .f32) (r : Fin 4096) :
    at1 (k0_pay34 v13 v153 v154 v156 v157 v159 v161) r
      = at1 v13 r - (at1 v154 r + ldK zero (fun j => rowOf (k0_pay31 v153 v156 v157 v159 v161) r (hi j))) := by
  unfold at1 k0_pay34 ldK
  show _ - (_ + (_ - _)) = _
  refine congrArg (_ - ·) (congrArg (_ + ·) (congrArg (_ - ·) ?_))
  refine (SumsAtIndex.rowsum_apply (a := 4096) (b := 64) _ _ _ _ _ r).trans (Finset.sum_congr rfl fun j _ => ?_)
  exact (sel_sp _).trans (congrArg (sp zero) (congrFun (row_pay32 v153 v156 v157 v159 v161 r) j))

/-! ### The outputs -/

theorem pay33_eq (v107 v153 : FVec Ideal S4096x64 .f32) (v156 : FVec Ideal S50x64 .f32) (v157 : Vec Ideal S1x1x50 .f32)
    (v159 : Vec Ideal S1x1x128x50 .f32) (v161 : Vec Ideal S1x1x128 .f32) :
    k0_pay33 v107 v153 v156 v157 v159 v161
      = concatenate S4096x128 1 [⟨S4096x64, addf (mulf v107 (logistic (k0_pay32 v153 v156 v157 v159 v161)))
          (extractStridedSlice S4096x64 ![0, 0] (k0_pay31 v153 v156 v157 v159 v161) slices_S4096x128_o0_0_S4096x64)⟩, ⟨S4096x64, v153⟩]
          concatenates_S4096x64_S4096x64_S4096x128_d1 := rfl

theorem row_pay33 (v107 v153 : FVec Ideal S4096x64 .f32) (v156 : FVec Ideal S50x64 .f32) (v157 : Vec Ideal S1x1x50 .f32)
    (v159 : Vec Ideal S1x1x128x50 .f32) (v161 : Vec Ideal S1x1x128 .f32) (r : Fin 4096) :
    rowOf (k0_pay33 v107 v153 v156 v157 v159 v161) r
      = cat (updY (rowOf v107 r) (rowOf (k0_pay31 v153 v156 v157 v159 v161) r)) (rowOf v153 r) := by
  funext j
  show k0_pay33 v107 v153 v156 v157 v159 v161 (ix2 r j) = _
  rw [pay33_eq]
  refine (cat_rows _ _ _ r j).trans (congrArg (fun a => cat a (rowOf v153 r) j) ?_)
  funext q
  have e : k0_pay32 v153 v156 v157 v159 v161 (ix2 r q) = k0_pay31 v153 v156 v157 v159 v161 (ix2 r (hi q)) :=
    congrFun (row_pay32 v153 v156 v157 v159 v161 r) q
  show _ * Ideal.logistic (k0_pay32 v153 v156 v157 v159 v161 (ix2 r q)) + _ = _
  rw [e, slice_lo]
  rfl

theorem row_pay35 (v107 v153 : FVec Ideal S4096x64 .f32) (v156 : FVec Ideal S50x64 .f32) (v157 : Vec Ideal S1x1x50 .f32)
    (v159 : Vec Ideal S1x1x128x50 .f32) (v161 : Vec Ideal S1x1x128 .f32) (r : Fin 4096) :
    rowOf (k0_pay35 v107 v153 v156 v157 v159 v161) r
      = fun j => rowOf (k0_pay33 v107 v153 v156 v157 v159 v161) r j * rowOf (k0_pay33 v107 v153 v156 v157 v159 v161) r j := rfl

end Cert.KernelIdeal.Rows

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LibHostAffine.lean ====
/-
  Host (StableHLO) operations read at an index, at exact real arithmetic, for arrays of any extents:
  * a scalar constant broadcast to any shape;
  * a bias vector broadcast first to a [1, N] row (dims [1]) and then down M rows (dims [0, 1]);
  * x @ wᵀ + b: a dot_general of an [M, K] array with the transpose of an [N, K] array (contracting [1] × [0]) plus that
    broadcast bias, at (r, n), is Σ_k x(r,k)·w(n,k) + b(n);
  * the host's sum along axis 1 of an [a, b] array from an initial scalar, at row r, is the initial value plus Σ_d x(r,d).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«102729_j7464653160938_2_alg».proof.Proof.LibHostDot

open scoped BigOperators

noncomputable section

namespace Idealize.ShloMosaic.HostAffine

open Idealize.ShloMosaic Idealize.ShloMosaic.ValueIdx

/-- A scalar constant broadcast to any shape reads, everywhere, as the constant. -/
theorem bcast_const {t : Shape} (dims : Fin 0 → Fin t.rank) (h : (⟨0, ![]⟩ : Shape).BroadcastsInDim t dims) (b : BitVec 32) (j : t.Idx) :
    broadcastInDim t dims h (constant (F := Ideal) ⟨0, ![]⟩ .f32 b) j = Ideal.ofBits .f32 b :=
  (broadcastInDim_apply dims h _ j ix0 (fun a => a.elim0)).trans rfl

/-- A bias vector laid as a row (dims [1]) and repeated down M rows (dims [0, 1]) reads b(n) at (r, n). -/
theorem bias_bcast {M N : ℕ} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    broadcastInDim ⟨2, ![M, N]⟩ ![0, 1] h2 (broadcastInDim ⟨2, ![1, N]⟩ ![1] h1 b) (ix2 r n) = b (ix1 n) := by
  refine (broadcastInDim_apply _ h2 _ (ix2 r n) (ix2 (0 : Fin 1) n) (fun a => ?_)).trans
    (broadcastInDim_apply _ h1 b (ix2 (0 : Fin 1) n) (ix1 n) (fun a => ?_))
  · match a with
    | ⟨0, _⟩ => rfl
    | ⟨1, _⟩ =>
      show n.val = if N = 1 then 0 else n.val
      split_ifs with hN
      · have := n.isLt; omega
      · rfl
  · match a with
    | ⟨0, _⟩ =>
      show n.val = if N = 1 then 0 else n.val
      split_ifs with hN
      · have := n.isLt; omega
      · rfl

/-- x @ wᵀ + b on the host, at (r, n): Σ_k x(r,k)·w(n,k) + b(n). -/
theorem affine_apply {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    addf (Host.dotGeneral D none X (transpose ⟨2, ![K, N]⟩ [1, 0] w ht))
        (broadcastInDim ⟨2, ![M, N]⟩ ![0, 1] h2 (broadcastInDim ⟨2, ![1, N]⟩ ![1] h1 b)) (ix2 r n)
      = (∑ k : Fin K, X (ix2 r k) * w (ix2 n k)) + b (ix1 n) := by
  show _ + _ = _
  rw [HostDot.dotGeneral_apply D hlc hrc hln hrn hlb hrb, bias_bcast]
  congr 1
  exact Finset.sum_congr rfl fun k _ => congrArg (_ * ·) (transpose_ix2_apply w ht k n)

/-- The host's sum along axis 1 of an [a, b] array from an initial value, at row r. -/
theorem rowsum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd x init h' hu (ix1 r) = init (Shape.Idx.first hu) + ∑ d : Fin b, x (ix2 r d) := by
  have h : (⟨2, ![a, b]⟩ : Shape).Reduces [1] ⟨1, ![a]⟩ := let ⟨e, f⟩ := h'; ⟨e, Nat.one_pos, f⟩
  refine (Ideal.hostReduceAdd_single h' h x _ (ix1 r)).trans ?_
  refine congrArg (_ + ·) (Finset.sum_congr rfl fun d _ => congrArg x (funext fun ax => Fin.ext ?_))
  match ax with
  | ⟨0, _⟩ => rfl
  | ⟨1, _⟩ => rfl

end Idealize.ShloMosaic.HostAffine

end
-- ==== Proof.RefRows.lean ====
/-
  The reference's staged values, one batch row at a time: row R of each named stage of the reference's run is the row
  function of FlowRow applied to row R of the stages and arguments it was computed from; the weight blocks are cut
  out of the [2,2,·,·] stacks by (flow, half).
-/
import proofs.«102729_j7464653160938_2_alg».proof.Proof.Gen.ReferenceIdeal.Run
import proofs.«102729_j7464653160938_2_alg».proof.Proof.FlowLayout
import proofs.«102729_j7464653160938_2_alg».proof.Proof.LibHostAffine

open scoped BigOperators
open Idealize.ShloMosaic Idealize.ShloMosaic.ValueIdx Cert.Flow

noncomputable section

namespace Cert.ReferenceIdeal.Rows

open Cert.ReferenceIdeal Cert.ReferenceIdeal.Gen Cert.ReferenceIdeal.Value Idealize.ShloMosaic.StableHlo

variable [Cert.ReferenceIdeal.Facts]

abbrev half : EReal := Ideal.ofBits .f32 0x3F000000#32
abbrev mhalf : EReal := Ideal.ofBits .f32 0xBF000000#32
abbrev zero : EReal := Ideal.ofBits .f32 0x00000000#32
abbrev one : EReal := Ideal.ofBits .f32 0x3F800000#32

/-! ### Host layout operations at an index -/

theorem bcast_const {t : Shape} (dims : Fin 0 → Fin t.rank) (h : (⟨0, ![]⟩ : Shape).BroadcastsInDim t dims) (b : BitVec 32) (j : t.Idx) :
    broadcastInDim t dims h (constant (F := Ideal) ⟨0, ![]⟩ .f32 b) j = Ideal.ofBits .f32 b :=
  HostAffine.bcast_const dims h b j

/-- x @ wᵀ + b on the host, at (r, n), as the affine map of row r. -/
theorem hostAff {M K N : ℕ} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (X : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (n : Fin N) :
    addf (Host.dotGeneral D none X (transpose ⟨2, ![K, N]⟩ [1, 0] w ht))
        (broadcastInDim ⟨2, ![M, N]⟩ ![0, 1] h2 (broadcastInDim ⟨2, ![1, N]⟩ ![1] h1 b)) (ix2 r n)
      = lin (mat w) (vec b) (rowOf X r) n :=
  HostAffine.affine_apply D hlc hrc hln hrn hlb hrb X w ht b h1 h2 r n

/-- Block (p, q) of a [2,2,a,b] stack, cut out and read as a matrix. -/
theorem block4 {a b : ℕ} (A : (⟨4, ![2, 2, a, b]⟩ : Shape).Idx → EReal) (p q : ℕ) (hp : p < 2) (hq : q < 2)
    (hs : (⟨4, ![2, 2, a, b]⟩ : Shape).Slices ![p, q, 0, 0] ⟨4, ![1, 1, a, b]⟩)
    (hc : (⟨4, ![1, 1, a, b]⟩ : Shape).ShapeCasts ⟨2, ![a, b]⟩) :
    mat (shapeCast ⟨2, ![a, b]⟩ (extractStridedSlice ⟨4, ![1, 1, a, b]⟩ ![p, q, 0, 0] A hs) hc) = w4 A ⟨p, hp⟩ ⟨q, hq⟩ := by
  funext n k
  unfold mat w4
  rw [cast_11ab]
  exact extractStridedSlice_apply _ A hs _ _ (fun ax => by
    match ax with
    | ⟨0, _⟩ => rfl
    | ⟨1, _⟩ => rfl
    | ⟨2, _⟩ => exact (Nat.zero_add _).symm
    | ⟨3, _⟩ => exact (Nat.zero_add _).symm)

/-- Block (p, q) of a [2,2,a] stack, cut out and read as a vector. -/
theorem block3 {a : ℕ} (A : (⟨3, ![2, 2, a]⟩ : Shape).Idx → EReal) (p q : ℕ) (hp : p < 2) (hq : q < 2)
    (hs : (⟨3, ![2, 2, a]⟩ : Shape).Slices ![p, q, 0] ⟨3, ![1, 1, a]⟩)
    (hc : (⟨3, ![1, 1, a]⟩ : Shape).ShapeCasts ⟨1, ![a]⟩) :
    vec (shapeCast ⟨1, ![a]⟩ (extractStridedSlice ⟨3, ![1, 1, a]⟩ ![p, q, 0] A hs) hc) = w3 A ⟨p, hp⟩ ⟨q, hq⟩ := by
  funext n
  unfold vec w3
  rw [cast_11a]
  exact extractStridedSlice_apply _ A hs _ _ (fun ax => by
    match ax with
    | ⟨0, _⟩ => rfl
    | ⟨1, _⟩ => rfl
    | ⟨2, _⟩ => exact (Nat.zero_add _).symm)

theorem hostRowsum {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd x init h' hu (ix1 r) = init (Shape.Idx.first hu) + ∑ d : Fin b, x (ix2 r d) :=
  HostAffine.rowsum_apply x init h' hu r

/-! ### The arguments, as arrays -/

variable (V0 : Valuation τ sig (Elt Ideal))

abbrev a0 : S262144x128.Idx → EReal := V0 (Proc.devRef .tc main_arg0)
abbrev a1 : S262144x128.Idx → EReal := V0 (Proc.devRef .tc main_arg1)
abbrev a2 : S262144x128.Idx → EReal := V0 (Proc.devRef .tc main_arg2)
abbrev a3 : S2x2x50x64.Idx → EReal := V0 (Proc.devRef .tc main_arg3)
abbrev a4 : S2x2x50.Idx → EReal := V0 (Proc.devRef .tc main_arg4)
abbrev a5 : S2x2x64x50.Idx → EReal := V0 (Proc.devRef .tc main_arg5)
abbrev a6 : S2x2x64.Idx → EReal := V0 (Proc.devRef .tc main_arg6)
abbrev a7 : S2x2x64x50.Idx → EReal := V0 (Proc.devRef .tc main_arg7)
abbrev a8 : S2x2x64.Idx → EReal := V0 (Proc.devRef .tc main_arg8)

/-! ### The stages -/

theorem row_v4 (R : Fin 262144) :
    rowOf (res_main_v4 V0) R = zrow half (rowOf (a0 V0) R) (rowOf (a1 V0) R) (rowOf (a2 V0) R) := by
  funext j
  unfold rowOf res_main_v4 zrow
  show _ * Ideal.exp (_ * _) + _ = _
  rw [bcast_const]

theorem row_v6 (R : Fin 262144) :
    rowOf (res_main_v6 V0) R = fun j => rowOf (res_main_v4 V0) R j - rowOf (a0 V0) R j := rfl

theorem row_v14 (R : Fin 262144) : rowOf (res_main_v14 V0) R = fun j => rowOf (res_main_v4 V0) R (lo j) := by
  funext j; unfold rowOf res_main_v14; rw [slice_lo]

local macro "hid_tac" : tactic => `(tactic|
  (show Ideal.tanh _ = _
   rw [hostAff dot_S262144x64_S64x50_S262144x50_1_0_0_1_n_n rfl rfl rfl rfl rfl rfl, block4 _ _ _ (by decide) (by decide), block3 _ _ _ (by decide) (by decide)]
   rfl))

theorem row_v34 (R : Fin 262144) :
    rowOf (res_main_v34 V0) R = hid (w4 (a3 V0) 0 0) (w3 (a4 V0) 0 0) (rowOf (res_main_v14 V0) R) := by
  funext n; unfold rowOf res_main_v34 hid; hid_tac
theorem row_v73 (R : Fin 262144) :
    rowOf (res_main_v73 V0) R = hid (w4 (a3 V0) 0 1) (w3 (a4 V0) 0 1) (rowOf (res_main_v52 V0) R) := by
  funext n; unfold rowOf res_main_v73 hid; hid_tac
theorem row_v112 (R : Fin 262144) :
    rowOf (res_main_v112 V0) R = hid (w4 (a3 V0) 1 0) (w3 (a4 V0) 1 0) (rowOf (res_main_v91 V0) R) := by
  funext n; unfold rowOf res_main_v112 hid; hid_tac
theorem row_v151 (R : Fin 262144) :
    rowOf (res_main_v151 V0) R = hid (w4 (a3 V0) 1 1) (w3 (a4 V0) 1 1) (rowOf (res_main_v130 V0) R) := by
  funext n; unfold rowOf res_main_v151 hid; hid_tac

/-- sigmoid as the host spells it: 1 / (1 + exp(−s)). -/
def sigH (s : EReal) : EReal := Ideal.div one (one + Ideal.exp (-s))

local macro "sig_tac" : tactic => `(tactic|
  (show Ideal.div _ (_ + Ideal.exp (-(_))) = _
   rw [bcast_const, hostAff dot_S262144x50_S50x64_S262144x64_1_0_0_1_n_n rfl rfl rfl rfl rfl rfl, block4 _ _ _ (by decide) (by decide), block3 _ _ _ (by decide) (by decide)]
   rfl))

theorem row_v50 (R : Fin 262144) :
    rowOf (res_main_v50 V0) R = fun j => sigH (lin (w4 (a7 V0) 0 0) (w3 (a8 V0) 0 0) (rowOf (res_main_v34 V0) R) j) := by
  funext j; unfold rowOf res_main_v50 sigH; sig_tac
theorem row_v89 (R : Fin 262144) :
    rowOf (res_main_v89 V0) R = fun j => sigH (lin (w4 (a7 V0) 0 1) (w3 (a8 V0) 0 1) (rowOf (res_main_v73 V0) R) j) := by
  funext j; unfold rowOf res_main_v89 sigH; sig_tac
theorem row_v128 (R : Fin 262144) :
    rowOf (res_main_v128 V0) R = fun j => sigH (lin (w4 (a7 V0) 1 0) (w3 (a8 V0) 1 0) (rowOf (res_main_v112 V0) R) j) := by
  funext j; unfold rowOf res_main_v128 sigH; sig_tac
theorem row_v167 (R : Fin 262144) :
    rowOf (res_main_v167 V0) R = fun j => sigH (lin (w4 (a7 V0) 1 1) (w3 (a8 V0) 1 1) (rowOf (res_main_v151 V0) R) j) := by
  funext j; unfold rowOf res_main_v167 sigH; sig_tac

local macro "mu_tac" : tactic => `(tactic|
  (rw [hostAff dot_S262144x50_S50x64_S262144x64_1_0_0_1_n_n rfl rfl rfl rfl rfl rfl, block4 _ _ _ (by decide) (by decide), block3 _ _ _ (by decide) (by decide)]
   rfl))

theorem row_v52 (R : Fin 262144) :
    rowOf (res_main_v52 V0) R = fun j => rowOf (res_main_v4 V0) R (hi j) * rowOf (res_main_v50 V0) R j
      + lin (w4 (a5 V0) 0 0) (w3 (a6 V0) 0 0) (rowOf (res_main_v34 V0) R) j := by
  funext j; unfold rowOf res_main_v52
  show _ * _ + _ = _
  rw [slice_hi]; mu_tac
theorem row_v91 (R : Fin 262144) :
    rowOf (res_main_v91 V0) R = fun j => rowOf (res_main_v14 V0) R j * rowOf (res_main_v89 V0) R j
      + lin (w4 (a5 V0) 0 1) (w3 (a6 V0) 0 1) (rowOf (res_main_v73 V0) R) j := by
  funext j; unfold rowOf res_main_v91
  show _ * _ + _ = _
  mu_tac
theorem row_v130 (R : Fin 262144) :
    rowOf (res_main_v130 V0) R = fun j => rowOf (res_main_v52 V0) R j * rowOf (res_main_v128 V0) R j
      + lin (w4 (a5 V0) 1 0) (w3 (a6 V0) 1 0) (rowOf (res_main_v112 V0) R) j := by
  funext j; unfold rowOf res_main_v130
  show _ * _ + _ = _
  mu_tac

theorem row_v173 (R : Fin 262144) :
    rowOf (res_main_v173 V0) R = cat (fun j => rowOf (res_main_v91 V0) R j * rowOf (res_main_v167 V0) R j
      + lin (w4 (a5 V0) 1 1) (w3 (a6 V0) 1 1) (rowOf (res_main_v151 V0) R) j) (rowOf (res_main_v130 V0) R) := by
  funext j
  unfold rowOf res_main_v173
  refine (cat_rows _ _ _ R j).trans ?_
  congr 1
  funext q
  unfold rowOf
  show _ * _ + _ = _
  mu_tac

/-! ### The two per-row scalars -/

theorem row_logpz (R : Fin 262144) :
    at1 (val4 V0 (Proc.devRef .tc main_v178)) R
      = mhalf * (zero + ∑ j, rowOf (res_main_v173 V0) R j * rowOf (res_main_v173 V0) R j) := by
  rw [val4_main_v178]
  unfold at1
  simp only [mulf_apply, bcast_const, hostRowsum]
  rfl

theorem row_logqz (R : Fin 262144) :
    at1 (val4 V0 (Proc.devRef .tc main_v174)) R
      = mhalf * ((zero + ∑ j, rowOf (a1 V0) R j)
          + (zero + ∑ j, Ideal.div (rowOf (res_main_v6 V0) R j * rowOf (res_main_v6 V0) R j) (Ideal.exp (rowOf (a1 V0) R j))))
        - ((((zero + (zero + ∑ j, Ideal.log (rowOf (res_main_v50 V0) R j)))
              + (zero + ∑ j, Ideal.log (rowOf (res_main_v89 V0) R j)))
            + (zero + ∑ j, Ideal.log (rowOf (res_main_v128 V0) R j)))
          + (zero + ∑ j, Ideal.log (rowOf (res_main_v167 V0) R j))) := by
  rw [val4_main_v174]
  unfold at1
  simp only [subf_apply, mulf_apply, addf_apply, bcast_const, hostRowsum]
  rfl

end Cert.ReferenceIdeal.Rows

end
-- ==== Proof.FlowAlgebra.lean ====
/-
  The laws that join the kernel's spelling of a row to the reference's, on real entries.
  * tanh of any extended real is a real, so every affine image of a hidden layer with real weights is real;
  * on a real s:  log sigmoid(s) = −softplus(−s), where softplus(−s) = max(−s, 0) + log(1 + exp(−|s|));
    summed over a row, the reference's Σ log sigmoid is the kernel's 0 − Σ softplus;
  * on real eps, logvar, mean:  ((eps·exp(½·logvar) + mean) − mean)² / exp(logvar) = eps², because exp(½t)² = exp(t) ≠ 0.
-/
import Mathlib.Analysis.SpecialFunctions.Log.Basic
import proofs.«102729_j7464653160938_2_alg».proof.Proof.FlowRow

open scoped BigOperators
open Idealize.ShloMosaic

noncomputable section

namespace Cert.Flow

/-- A vector of extended reals all of whose entries are reals. -/
def IsReal {ι : Type} (x : ι → EReal) : Prop := ∀ i, ∃ r : ℝ, x i = (r : EReal)

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem tanh_real (x : EReal) : ∃ r : ℝ, Ideal.tanh x = (r : EReal) := by
  induction x using EReal.rec with
  | bot => exact ⟨-1, by simp⟩
  | top => exact ⟨1, by simp⟩
  | coe r => exact ⟨Real.tanh r, rfl⟩

theorem hid_real {K N : ℕ} (W : Fin N → Fin K → EReal) (b : Fin N → EReal) (x : Fin K → EReal) : IsReal (hid W b x) :=
  fun n => tanh_real _

theorem lin_real {K N : ℕ} (W : Fin N → Fin K → EReal) (b : Fin N → EReal) (x : Fin K → EReal)
    (hW : ∀ n, IsReal (W n)) (hb : IsReal b) (hx : IsReal x) : IsReal (lin W b x) := by
  intro n
  choose W' hW' using hW
  choose b' hb' using hb
  choose x' hx' using hx
  refine ⟨(∑ k, x' k * W' n k) + b' n, ?_⟩
  unfold lin
  simp only [hW', hb', hx', ← EReal.coe_mul, coe_sum, ← EReal.coe_add]

/-- softplus(−x) on a real, as a real. -/
def spR (x : ℝ) : ℝ := max (-x) 0 + Real.log (1 + Real.exp (-(max (-x) x)))

theorem sp_coe (x : ℝ) : sp 0 (x : EReal) = (spR x : EReal) := by
  unfold sp spR Ideal.log1p
  have h1 : (0 : EReal) - (x : EReal) = ((-x : ℝ) : EReal) := by rw [zero_sub, EReal.coe_neg]
  rw [h1, sub_zero, ← EReal.coe_neg, neg_neg]
  have h2 : max ((-x : ℝ) : EReal) 0 = ((max (-x) 0 : ℝ) : EReal) := by
    rw [← EReal.coe_zero]; exact (EReal.coe_strictMono.monotone.map_max).symm
  have h3 : max ((-x : ℝ) : EReal) (x : EReal) = ((max (-x) x : ℝ) : EReal) :=
    (EReal.coe_strictMono.monotone.map_max).symm
  rw [h2, h3, zero_sub, ← EReal.coe_neg, Ideal.exp_coe, ← EReal.coe_one, ← EReal.coe_add, Ideal.log_coe,
    if_neg (by have := Real.exp_pos (-(max (-x) x)); linarith), ← EReal.coe_add]

theorem log_logistic_coe (x : ℝ) : Ideal.log (Ideal.logistic (x : EReal)) = ((-(spR x) : ℝ) : EReal) := by
  have hpos : 0 < 1 + Real.exp (-x) := by have := Real.exp_pos (-x); linarith
  rw [Ideal.logistic_coe, Ideal.log_coe, if_neg (by have := inv_pos.mpr hpos; linarith)]
  congr 1
  rw [Real.log_inv]
  congr 1
  unfold spR
  rcases le_total 0 x with hx | hx
  · rw [max_eq_right (by linarith : -x ≤ 0), max_eq_right (by linarith : -x ≤ x), zero_add]
  · rw [max_eq_left (by linarith : 0 ≤ -x), max_eq_left (by linarith : x ≤ -x), neg_neg]
    have e : 1 + Real.exp (-x) = Real.exp (-x) * (1 + Real.exp x) := by
      rw [mul_add, mul_one, ← Real.exp_add, neg_add_cancel, Real.exp_zero, add_comm]
    rw [e, Real.log_mul (Real.exp_pos _).ne' (by have := Real.exp_pos x; linarith), Real.log_exp]

/-- The reference's Σ log sigmoid(s) from 0 is the kernel's 0 − Σ softplus(−s), on a real row s. -/
theorem ld_eq (s : Fin 64 → EReal) (hs : IsReal s) : ldR 0 s = ldK 0 s := by
  choose s' hs' using hs
  unfold ldR ldK
  simp only [hs', log_logistic_coe, sp_coe, coe_sum]
  rw [zero_add, zero_sub, ← EReal.coe_neg, Finset.sum_neg_distrib]

/-- (z − mean)² / exp(logvar) = eps² on reals. -/
theorem sq_quot (e l m : ℝ) :
    Ideal.div ((((e : EReal) * Ideal.exp ((((1 / 2 : ℝ)) : EReal) * (l : EReal)) + (m : EReal)) - (m : EReal))
        * (((e : EReal) * Ideal.exp ((((1 / 2 : ℝ)) : EReal) * (l : EReal)) + (m : EReal)) - (m : EReal)))
      (Ideal.exp (l : EReal)) = (e : EReal) * (e : EReal) := by
  simp only [← EReal.coe_mul, Ideal.exp_coe, ← EReal.coe_add, ← EReal.coe_sub]
  rw [Ideal.div_coe (Real.exp_pos l).ne', ← EReal.coe_mul]
  congr 1
  have h : Real.exp (1 / 2 * l) * Real.exp (1 / 2 * l) = Real.exp l := by
    rw [← Real.exp_add]; congr 1; ring
  have hE : Real.exp (1 / 2 * l) ≠ 0 := (Real.exp_pos _).ne'
  rw [← h]
  field_simp
  ring

/-- The reference's Σ logvar + Σ (z − mean)²/exp(logvar), each from 0, is the kernel's Σ logvar + Σ eps², on real rows. -/
theorem quad_eq (m l e : Fin 128 → EReal) (hm : IsReal m) (hl : IsReal l) (he : IsReal e) :
    ((0 : EReal) + ∑ j, l j) + (0 + ∑ j, Ideal.div ((zrow (((1 / 2 : ℝ)) : EReal) m l e j - m j) * (zrow (((1 / 2 : ℝ)) : EReal) m l e j - m j)) (Ideal.exp (l j)))
      = (∑ j, l j) + ∑ j, e j * e j := by
  choose m' hm' using hm
  choose l' hl' using hl
  choose e' he' using he
  rw [zero_add, zero_add]
  congr 1
  refine Finset.sum_congr rfl fun j _ => ?_
  unfold zrow
  rw [hm', hl', he']
  exact sq_quot _ _ _

/-- One coupling update: the kernel reads mu and s off ONE 128-wide affine map whose rows are W_mu's then W_sig's;
    the reference computes the two 64-wide maps apart and spells the sigmoid 1 / (1 + exp(−s)). -/
theorem step_eq {one : EReal} (h1 : one = 1) (Wms : Fin 128 → Fin 50 → EReal) (bms : Fin 128 → EReal)
    (Wmu Wsig : Fin 64 → Fin 50 → EReal) (bmu bsig : Fin 64 → EReal)
    (hmu : ∀ j, Wms (lo j) = Wmu j) (hsig : ∀ j, Wms (hi j) = Wsig j)
    (hbmu : ∀ j, bms (lo j) = bmu j) (hbsig : ∀ j, bms (hi j) = bsig j)
    (h : Fin 50 → EReal) (other : Fin 64 → EReal) :
    updY other (lin Wms bms h)
      = fun j => other j * Ideal.div one (one + Ideal.exp (-(lin Wsig bsig h j))) + lin Wmu bmu h j := by
  subst h1
  funext j
  unfold updY upd lin Ideal.logistic
  simp only [hmu, hsig, hbmu, hbsig]

/-- The right half of the fused affine map is the W_sig map. -/
theorem right_half (Wms : Fin 128 → Fin 50 → EReal) (bms : Fin 128 → EReal) (Wsig : Fin 64 → Fin 50 → EReal) (bsig : Fin 64 → EReal)
    (hsig : ∀ j, Wms (hi j) = Wsig j) (hbsig : ∀ j, bms (hi j) = bsig j) (h : Fin 50 → EReal) :
    (fun j => lin Wms bms h (hi j)) = lin Wsig bsig h := by
  funext j
  unfold lin
  rw [hsig, hbsig]

/-- One step's log-determinant term: the kernel's 0 − Σ softplus(−s) is the reference's Σ log(1/(1+exp(−s))) from 0,
    the hidden row being real (a tanh) and W_sig, b_sig real. -/
theorem ldstep_eq {zero one : EReal} (h0 : zero = 0) (h1 : one = 1) (Wms : Fin 128 → Fin 50 → EReal) (bms : Fin 128 → EReal)
    (Wsig : Fin 64 → Fin 50 → EReal) (bsig : Fin 64 → EReal)
    (hsig : ∀ j, Wms (hi j) = Wsig j) (hbsig : ∀ j, bms (hi j) = bsig j)
    (h : Fin 50 → EReal) (hh : IsReal h) (hW : ∀ j, IsReal (Wsig j)) (hb : IsReal bsig) :
    ldK zero (fun j => lin Wms bms h (hi j))
      = zero + ∑ j, Ideal.log (Ideal.div one (one + Ideal.exp (-(lin Wsig bsig h j)))) := by
  subst h0 h1
  rw [right_half Wms bms Wsig bsig hsig hbsig h]
  exact (ld_eq _ (lin_real _ _ _ hW hb hh)).symm

end Cert.Flow

end
-- ==== Proof.FlowConsts.lean ====
/-
  The three float literals both programs spell, as the extended reals they denote: 0.0 is 0, 1.0 is 1, 0.5 is the real ½.
  (−0.5 is never evaluated: it multiplies the same sum on both sides.)
-/
import Idealize.ShloMosaic.PureOps.Ideal

noncomputable section

namespace Cert.Flow

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_half : Ideal.ofBits .f32 0x3F000000#32 = (((1 / 2 : ℝ)) : EReal) := by
  simp [Ideal.ofBits, Ideal.ieee, -EReal.coe_mul]; norm_num

end Cert.Flow

end
-- ==== Proof.Bridge.lean ====
/-
  One grid point of the kernel against the reference, one batch row at a time.

  The kernel's values at a grid point are functions of what the body loads there (three 4096-row input blocks and
  sixteen weight blocks). When row r of the input blocks is row R of the reference's arguments, and the weight
  blocks are the reference's weights (the fused blocks W_mu's rows over W_sig's), row r of every kernel value is
  row R of the reference's stage: the sample's halves, each hidden layer, each coupling update, the output row,
  and the two per-row scalars. The last two use that the arguments' entries are reals.
-/
import proofs.«102729_j7464653160938_2_alg».proof.Proof.KernelRows
import proofs.«102729_j7464653160938_2_alg».proof.Proof.RefRows
import proofs.«102729_j7464653160938_2_alg».proof.Proof.FlowAlgebra
import proofs.«102729_j7464653160938_2_alg».proof.Proof.FlowConsts

open scoped BigOperators
open Idealize.ShloMosaic Idealize.ShloMosaic.ValueIdx Cert.Flow

noncomputable section

namespace Cert.Bridge

open Cert.KernelIdeal.Gen Cert.KernelIdeal.Rows Cert.ReferenceIdeal.Value Idealize.ShloMosaic.StableHlo
open Cert.ReferenceIdeal.Rows (row_v4 row_v6 row_v14 row_v34 row_v73 row_v112 row_v151 row_v50 row_v89 row_v128 row_v167
  row_v52 row_v91 row_v130 row_v173 row_logpz row_logqz a0 a1 a2 a3 a4 a5 a6 a7 a8)

variable [Cert.KernelIdeal.Facts] [Cert.ReferenceIdeal.Facts]

/-- What the body loads at one grid point. -/
structure Loads where
  x0 : Vec Ideal Cert.KernelIdeal.S4096x128 .f32
  x1 : Vec Ideal Cert.KernelIdeal.S4096x128 .f32
  x2 : Vec Ideal Cert.KernelIdeal.S4096x128 .f32
  v17 : Vec Ideal Cert.KernelIdeal.S1x1x50x64 .f32
  v63 : Vec Ideal Cert.KernelIdeal.S1x1x50x64 .f32
  v109 : Vec Ideal Cert.KernelIdeal.S1x1x50x64 .f32
  v155 : Vec Ideal Cert.KernelIdeal.S1x1x50x64 .f32
  v19 : Vec Ideal Cert.KernelIdeal.S1x1x50 .f32
  v65 : Vec Ideal Cert.KernelIdeal.S1x1x50 .f32
  v111 : Vec Ideal Cert.KernelIdeal.S1x1x50 .f32
  v157 : Vec Ideal Cert.KernelIdeal.S1x1x50 .f32
  v21 : Vec Ideal Cert.KernelIdeal.S1x1x128x50 .f32
  v67 : Vec Ideal Cert.KernelIdeal.S1x1x128x50 .f32
  v113 : Vec Ideal Cert.KernelIdeal.S1x1x128x50 .f32
  v159 : Vec Ideal Cert.KernelIdeal.S1x1x128x50 .f32
  v23 : Vec Ideal Cert.KernelIdeal.S1x1x128 .f32
  v69 : Vec Ideal Cert.KernelIdeal.S1x1x128 .f32
  v115 : Vec Ideal Cert.KernelIdeal.S1x1x128 .f32
  v161 : Vec Ideal Cert.KernelIdeal.S1x1x128 .f32

variable (L : Loads)

/-! ### The kernel's values at the point, as the body composes them -/

/-- The first hidden layer (from z1). -/
def KH1 : FVec Ideal Cert.KernelIdeal.S4096x50 .bf16 := k0_pay9 L.x0 L.x1 L.x2 L.v17 L.v19
/-- z2 after step (0,0). -/
def KZ2a : FVec Ideal Cert.KernelIdeal.S4096x64 .f32 := k0_pay12 (k0_pay5 L.x0 L.x1 L.x2) (k0_pay7 L.v21) (k0_pay8 L.v23) (KH1 L)
/-- The same, as the next matmul's operand. -/
def KX71 : FVec Ideal Cert.KernelIdeal.S4096x64 .bf16 := k0_pay17 (k0_pay5 L.x0 L.x1 L.x2) (k0_pay7 L.v21) (k0_pay8 L.v23) (KH1 L)
/-- z1 after step (0,1). -/
def KZ1a : FVec Ideal Cert.KernelIdeal.S4096x64 .f32 :=
  k0_pay21 (k0_pay4 L.x0 L.x1 L.x2) (k0_pay14 L.v65) (k0_pay15 L.v67) (k0_pay16 L.v69) (KX71 L) (k0_pay18 L.v63)
/-- z2 after step (1,0). -/
def KZ2b : FVec Ideal Cert.KernelIdeal.S4096x64 .f32 :=
  k0_pay28 (KZ2a L) (KZ1a L) (k0_pay23 L.v109) (k0_pay24 L.v111) (k0_pay25 L.v113) L.v115
/-- The output block z1 | z2 after step (1,1). -/
def KOUT : FVec Ideal Cert.KernelIdeal.S4096x128 .f32 := k0_pay33 (KZ1a L) (KZ2b L) (k0_pay30 L.v155) L.v157 L.v159 L.v161
/-- The log-determinant after steps 1, 2, 3. -/
def KLD1 : FVec Ideal Cert.KernelIdeal.S4096 .f32 := k0_pay13 k0_pay6 (k0_pay7 L.v21) (k0_pay8 L.v23) (KH1 L)
def KLD2 : FVec Ideal Cert.KernelIdeal.S4096 .f32 :=
  k0_pay22 (KLD1 L) (k0_pay14 L.v65) (k0_pay15 L.v67) (k0_pay16 L.v69) (KX71 L) (k0_pay18 L.v63)
def KLD3 : FVec Ideal Cert.KernelIdeal.S4096 .f32 :=
  k0_pay29 (KZ1a L) (KLD2 L) (k0_pay23 L.v109) (k0_pay24 L.v111) (k0_pay25 L.v113) L.v115
/-- logqz and logpz of the block. -/
def KQZ : FVec Ideal Cert.KernelIdeal.S4096 .f32 :=
  k0_pay34 (k0_pay3 L.x1 L.x2) (KZ2b L) (KLD3 L) (k0_pay30 L.v155) L.v157 L.v159 L.v161
def KPZ : FVec Ideal Cert.KernelIdeal.S4096 .f32 :=
  k0_pay1 (k0_pay35 (KZ1a L) (KZ2b L) (k0_pay30 L.v155) L.v157 L.v159 L.v161)

variable (V0 : Valuation Cert.ReferenceIdeal.τ Cert.ReferenceIdeal.sig (Elt Ideal))

/-- The weight blocks the body loads are the reference's weights: block (flow, half) of W_in and b_in; the fused
    blocks hold W_mu's (b_mu's) rows first, then W_sig's (b_sig's). -/
structure WLink : Prop where
  w17 : mat4 L.v17 = w4 (a3 V0) 0 0
  w63 : mat4 L.v63 = w4 (a3 V0) 0 1
  w109 : mat4 L.v109 = w4 (a3 V0) 1 0
  w155 : mat4 L.v155 = w4 (a3 V0) 1 1
  b19 : vec3 L.v19 = w3 (a4 V0) 0 0
  b65 : vec3 L.v65 = w3 (a4 V0) 0 1
  b111 : vec3 L.v111 = w3 (a4 V0) 1 0
  b157 : vec3 L.v157 = w3 (a4 V0) 1 1
  m21 : ∀ j, mat4 L.v21 (lo j) = w4 (a5 V0) 0 0 j
  s21 : ∀ j, mat4 L.v21 (hi j) = w4 (a7 V0) 0 0 j
  m67 : ∀ j, mat4 L.v67 (lo j) = w4 (a5 V0) 0 1 j
  s67 : ∀ j, mat4 L.v67 (hi j) = w4 (a7 V0) 0 1 j
  m113 : ∀ j, mat4 L.v113 (lo j) = w4 (a5 V0) 1 0 j
  s113 : ∀ j, mat4 L.v113 (hi j) = w4 (a7 V0) 1 0 j
  m159 : ∀ j, mat4 L.v159 (lo j) = w4 (a5 V0) 1 1 j
  s159 : ∀ j, mat4 L.v159 (hi j) = w4 (a7 V0) 1 1 j
  bm23 : ∀ j, vec3 L.v23 (lo j) = w3 (a6 V0) 0 0 j
  bs23 : ∀ j, vec3 L.v23 (hi j) = w3 (a8 V0) 0 0 j
  bm69 : ∀ j, vec3 L.v69 (lo j) = w3 (a6 V0) 0 1 j
  bs69 : ∀ j, vec3 L.v69 (hi j) = w3 (a8 V0) 0 1 j
  bm115 : ∀ j, vec3 L.v115 (lo j) = w3 (a6 V0) 1 0 j
  bs115 : ∀ j, vec3 L.v115 (hi j) = w3 (a8 V0) 1 0 j
  bm161 : ∀ j, vec3 L.v161 (lo j) = w3 (a6 V0) 1 1 j
  bs161 : ∀ j, vec3 L.v161 (hi j) = w3 (a8 V0) 1 1 j

variable (r : Fin 4096) (R : Fin 262144)

/-- Row r of the three input blocks is row R of mean, logvar, eps. -/
structure RLink : Prop where
  h0 : rowOf L.x0 r = rowOf (a0 V0) R
  h1 : rowOf L.x1 r = rowOf (a1 V0) R
  h2 : rowOf L.x2 r = rowOf (a2 V0) R

/-- Row R of mean, logvar, eps is real, and so are W_sig and b_sig. -/
structure RealIn : Prop where
  r0 : IsReal (rowOf (a0 V0) R)
  r1 : IsReal (rowOf (a1 V0) R)
  r2 : IsReal (rowOf (a2 V0) R)
  ws : ∀ p q j, IsReal (w4 (a7 V0) p q j)
  bs : ∀ p q, IsReal (w3 (a8 V0) p q)

variable (hw : WLink L V0) (hr : RLink L V0 r R)
include hw hr

/-! ### The z flow -/

omit hw in
theorem eZ1 : rowOf (k0_pay4 L.x0 L.x1 L.x2) r = rowOf (res_main_v14 V0) R := by
  rw [row_pay4, row_v14, row_v4, hr.h0, hr.h1, hr.h2]

omit hw in
theorem eZ2 : rowOf (k0_pay5 L.x0 L.x1 L.x2) r = fun j => rowOf (res_main_v4 V0) R (hi j) := by
  rw [row_pay5, row_v4, hr.h0, hr.h1, hr.h2]

theorem eH1 : rowOf (KH1 L) r = rowOf (res_main_v34 V0) R := by
  unfold KH1
  rw [row_pay9, eZ1 L V0 r R hr, row_v34, hw.w17, hw.b19]

theorem eZ2a : rowOf (KZ2a L) r = rowOf (res_main_v52 V0) R := by
  unfold KZ2a
  rw [row_pay12, row_pay10, mat_pay7, vec_pay8, eH1 L V0 r R hw hr, eZ2 L V0 r R hr, row_v52, row_v50]
  exact step_eq ofBits_one _ _ _ _ _ _ hw.m21 hw.s21 hw.bm23 hw.bs23 _ _

theorem eX71 : rowOf (KX71 L) r = rowOf (res_main_v52 V0) R :=
  (row_pay17 _ _ _ _ r).trans (eZ2a L V0 r R hw hr)

omit hr in
theorem eH2 : hid (mat4 L.v63) (vec3 L.v65) (rowOf (res_main_v52 V0) R) = rowOf (res_main_v73 V0) R := by
  rw [row_v73, hw.w63, hw.b65]

theorem eZ1a : rowOf (KZ1a L) r = rowOf (res_main_v91 V0) R := by
  unfold KZ1a
  rw [row_pay21, row_pay19, mat_pay15, vec_pay16, mat_pay18, vec_pay14, eX71 L V0 r R hw hr, eH2 L V0 R hw,
    eZ1 L V0 r R hr, row_v91, row_v89]
  exact step_eq ofBits_one _ _ _ _ _ _ hw.m67 hw.s67 hw.bm69 hw.bs69 _ _

omit hr in
theorem eH3 : hid (mat4 L.v109) (vec3 L.v111) (rowOf (res_main_v91 V0) R) = rowOf (res_main_v112 V0) R := by
  rw [row_v112, hw.w109, hw.b111]

theorem eZ2b : rowOf (KZ2b L) r = rowOf (res_main_v130 V0) R := by
  unfold KZ2b
  rw [row_pay28, row_pay26, mat_pay25, mat_pay23, vec_pay24, eZ1a L V0 r R hw hr, eH3 L V0 R hw,
    eZ2a L V0 r R hw hr, row_v130, row_v128]
  exact step_eq ofBits_one _ _ _ _ _ _ hw.m113 hw.s113 hw.bm115 hw.bs115 _ _

omit hr in
theorem eH4 : hid (mat4 L.v155) (vec3 L.v157) (rowOf (res_main_v130 V0) R) = rowOf (res_main_v151 V0) R := by
  rw [row_v151, hw.w155, hw.b157]

/-- The output row. -/
theorem bridge_z : rowOf (KOUT L) r = rowOf (res_main_v173 V0) R := by
  unfold KOUT
  rw [row_pay33, row_pay31, mat_pay30, eZ1a L V0 r R hw hr, eZ2b L V0 r R hw hr, eH4 L V0 R hw, row_v173, row_v167]
  refine congrArg (fun a => cat a (rowOf (res_main_v130 V0) R)) ?_
  exact step_eq ofBits_one _ _ _ _ _ _ hw.m159 hw.s159 hw.bm161 hw.bs161 _ _

/-- logpz of the row. -/
theorem bridge_pz : at1 (KPZ L) r = at1 (val4 V0 (Proc.devRef .tc Cert.ReferenceIdeal.main_v178)) R := by
  have e := bridge_z L V0 r R hw hr
  unfold KOUT at e
  unfold KPZ
  rw [row_pay1, row_pay35, e, row_logpz, show Cert.ReferenceIdeal.Rows.zero = 0 from ofBits_zero, zero_add]

/-! ### The log-determinant terms and logqz -/

variable (hf : RealIn V0 R)
include hf

theorem eL1 : ldK zero (fun j => rowOf (k0_pay10 (k0_pay7 L.v21) (k0_pay8 L.v23) (KH1 L)) r (hi j))
    = zero + ∑ j, Ideal.log (rowOf (res_main_v50 V0) R j) := by
  rw [row_pay10, mat_pay7, vec_pay8, eH1 L V0 r R hw hr, row_v50]
  exact ldstep_eq ofBits_zero ofBits_one _ _ _ _ hw.s21 hw.bs23 _ (by rw [row_v34]; exact hid_real _ _ _) (hf.ws 0 0) (hf.bs 0 0)

theorem eL2 : ldK zero (fun j => rowOf (k0_pay19 (k0_pay14 L.v65) (k0_pay15 L.v67) (k0_pay16 L.v69) (KX71 L) (k0_pay18 L.v63)) r (hi j))
    = zero + ∑ j, Ideal.log (rowOf (res_main_v89 V0) R j) := by
  rw [row_pay19, mat_pay15, vec_pay16, mat_pay18, vec_pay14, eX71 L V0 r R hw hr, eH2 L V0 R hw, row_v89]
  exact ldstep_eq ofBits_zero ofBits_one _ _ _ _ hw.s67 hw.bs69 _ (by rw [row_v73]; exact hid_real _ _ _) (hf.ws 0 1) (hf.bs 0 1)

theorem eL3 : ldK zero (fun j => rowOf (k0_pay26 (KZ1a L) (k0_pay23 L.v109) (k0_pay24 L.v111) (k0_pay25 L.v113) L.v115) r (hi j))
    = zero + ∑ j, Ideal.log (rowOf (res_main_v128 V0) R j) := by
  rw [row_pay26, mat_pay25, mat_pay23, vec_pay24, eZ1a L V0 r R hw hr, eH3 L V0 R hw, row_v128]
  exact ldstep_eq ofBits_zero ofBits_one _ _ _ _ hw.s113 hw.bs115 _ (by rw [row_v112]; exact hid_real _ _ _) (hf.ws 1 0) (hf.bs 1 0)

theorem eL4 : ldK zero (fun j => rowOf (k0_pay31 (KZ2b L) (k0_pay30 L.v155) L.v157 L.v159 L.v161) r (hi j))
    = zero + ∑ j, Ideal.log (rowOf (res_main_v167 V0) R j) := by
  rw [row_pay31, mat_pay30, eZ2b L V0 r R hw hr, eH4 L V0 R hw, row_v167]
  exact ldstep_eq ofBits_zero ofBits_one _ _ _ _ hw.s159 hw.bs161 _ (by rw [row_v151]; exact hid_real _ _ _) (hf.ws 1 1) (hf.bs 1 1)

/-- logqz of the row. -/
theorem bridge_qz : at1 (KQZ L) r = at1 (val4 V0 (Proc.devRef .tc Cert.ReferenceIdeal.main_v174)) R := by
  unfold KQZ KLD3 KLD2 KLD1
  rw [row_pay34, row_pay29, row_pay22, row_pay13, row_pay3, hr.h1, hr.h2, eL1 L V0 r R hw hr hf, eL2 L V0 r R hw hr hf,
    eL3 L V0 r R hw hr hf, eL4 L V0 r R hw hr hf, row_logqz, row_v6, row_v4]
  refine congrArg₂ (· - ·) (congrArg (_ * ·) ?_) rfl
  have hq := quad_eq (rowOf (a0 V0) R) (rowOf (a1 V0) R) (rowOf (a2 V0) R) hf.r0 hf.r1 hf.r2
  rw [← ofBits_half, ← ofBits_zero] at hq
  exact hq.symm

end Cert.Bridge

end
-- ==== Proof.KernelBlocks.lean ====
/-
  From one grid point's blocks to the whole arrays.

  Point t (of 64) stages rows 4096·t … 4096·t+4095 of mean, logvar, eps and the whole weight arrays (W_in, b_in as
  given; W_mu over W_sig and b_mu over b_sig, concatenated on the host before the call), and writes back rows
  4096·t … of the three outputs. So what point t writes is block t of the reference's results, and the 64 blocks
  cover each output array.
-/
import proofs.«102729_j7464653160938_2_alg».proof.Proof.Gen.KernelIdeal.Frame
import proofs.«102729_j7464653160938_2_alg».proof.Proof.Bridge
import Idealize.ShloMosaic.Lib.StableHlo.Run

open scoped BigOperators
open Idealize.ShloMosaic Idealize.ShloMosaic.TcCoe Idealize.SL.Sem Idealize.ShloMosaic.ValueIdx Cert.Flow

noncomputable section

namespace Cert.KernelIdeal.Blocks

open Cert.KernelIdeal Cert.KernelIdeal.Gen
open Idealize.ShloMosaic.Pipeline (Dat)
open Cert.ReferenceIdeal.Rows (a0 a1 a2 a3 a4 a5 a6 a7 a8)
open Cert.ReferenceIdeal.Value (res_main_v173 val4)

variable [Cert.ReferenceIdeal.Facts]

theorem hz2 : (![0, 0] : Fin 2 → Nat) = fun _ => 0 := funext fun a => by fin_cases a <;> rfl
theorem hz1 : (![0] : Fin 1 → Nat) = fun _ => 0 := funext fun a => by fin_cases a <;> rfl

/-! ### The loads of a point, over plain arrays -/

/-- What the body loads from seven staged blocks: the three input blocks whole, and the sixteen weight blocks. -/
def loadsOf (x0 x1 x2 : Vec Ideal S4096x128 .f32) (x3 : Vec Ideal S2x2x50x64 .f32) (x4 : Vec Ideal S2x2x50 .f32)
    (x5 : Vec Ideal S2x2x128x50 .f32) (x6 : Vec Ideal S2x2x128 .f32) : Cert.Bridge.Loads where
  x0 := View.ld x0 r0_0
  x1 := View.ld x1 r0_0
  x2 := View.ld x2 r0_0
  v17 := View.ld x3 r0_1
  v63 := View.ld x3 r0_5
  v109 := View.ld x3 r0_9
  v155 := View.ld x3 r0_13
  v19 := View.ld x4 r0_2
  v65 := View.ld x4 r0_6
  v111 := View.ld x4 r0_10
  v157 := View.ld x4 r0_14
  v21 := View.ld x5 r0_3
  v67 := View.ld x5 r0_7
  v113 := View.ld x5 r0_11
  v159 := View.ld x5 r0_15
  v23 := View.ld x6 r0_4
  v69 := View.ld x6 r0_8
  v115 := View.ld x6 r0_12
  v161 := View.ld x6 r0_16

section
variable (x0 x1 x2 : Vec Ideal S4096x128 .f32) (x3 : Vec Ideal S2x2x50x64 .f32) (x4 : Vec Ideal S2x2x50 .f32)
  (x5 : Vec Ideal S2x2x128x50 .f32) (x6 : Vec Ideal S2x2x128 .f32)

/-- The three output buffers after the body are the body's three results of the point's loads. -/
theorem out7_of : out0_7 x0 x1 x2 x3 x4 x5 x6 = View.canon [⟨r0_0, Cert.Bridge.KOUT (loadsOf x0 x1 x2 x3 x4 x5 x6)⟩] := rfl
theorem out8_of : out0_8 x0 x1 x2 x3 x4 x5 x6 = View.canon [⟨r0_17, Cert.Bridge.KPZ (loadsOf x0 x1 x2 x3 x4 x5 x6)⟩] := rfl
theorem out9_of : out0_9 x0 x1 x2 x3 x4 x5 x6 = View.canon [⟨r0_17, Cert.Bridge.KQZ (loadsOf x0 x1 x2 x3 x4 x5 x6)⟩] := rfl

/-- A load of block (p, q) of a [2,2,a,b] stack. -/
theorem ld4 {a b : ℕ} (X : Vec Ideal ⟨4, ![2, 2, a, b]⟩ .f32) (p q : ℕ) (hp : p < 2) (hq : q < 2)
    (inb : ∀ ax, (![p, q, 0, 0] : Fin 4 → ℕ) ax + (![1, 1, a, b] : Fin 4 → ℕ) ax ≤ (⟨4, ![2, 2, a, b]⟩ : Shape).size ax)
    (n : Fin a) (k : Fin b) :
    View.ld X (Rect.unit (s := ⟨4, ![2, 2, a, b]⟩) ![p, q, 0, 0] ![1, 1, a, b] inb) (ix4 (0 : Fin 1) (0 : Fin 1) n k)
      = X (ix4 ⟨p, hp⟩ ⟨q, hq⟩ n k) := by
  refine congrArg X (funext fun ax => Fin.ext ?_)
  match ax with
  | ⟨0, _⟩ => exact Nat.add_zero p
  | ⟨1, _⟩ => exact Nat.add_zero q
  | ⟨2, _⟩ => show (0 : ℕ) + 1 * n.val = n.val; omega
  | ⟨3, _⟩ => show (0 : ℕ) + 1 * k.val = k.val; omega

/-- A load of block (p, q) of a [2,2,a] stack. -/
theorem ld3 {a : ℕ} (X : Vec Ideal ⟨3, ![2, 2, a]⟩ .f32) (p q : ℕ) (hp : p < 2) (hq : q < 2)
    (inb : ∀ ax, (![p, q, 0] : Fin 3 → ℕ) ax + (![1, 1, a] : Fin 3 → ℕ) ax ≤ (⟨3, ![2, 2, a]⟩ : Shape).size ax)
    (n : Fin a) :
    View.ld X (Rect.unit (s := ⟨3, ![2, 2, a]⟩) ![p, q, 0] ![1, 1, a] inb) (ix3 (0 : Fin 1) (0 : Fin 1) n)
      = X (ix3 ⟨p, hp⟩ ⟨q, hq⟩ n) := by
  refine congrArg X (funext fun ax => Fin.ext ?_)
  match ax with
  | ⟨0, _⟩ => exact Nat.add_zero p
  | ⟨1, _⟩ => exact Nat.add_zero q
  | ⟨2, _⟩ => show (0 : ℕ) + 1 * n.val = n.val; omega

variable (V0 : Valuation Cert.ReferenceIdeal.τ Cert.ReferenceIdeal.sig (Elt Ideal))

/-- The weight blocks loaded from arrays that hold the reference's weights (the fused ones W_mu over W_sig). -/
theorem wlink_of (h3 : ∀ i, x3 i = a3 V0 i) (h4 : ∀ i, x4 i = a4 V0 i)
    (h5lo : ∀ p q j k, x5 (ix4 p q (lo j) k) = a5 V0 (ix4 p q j k)) (h5hi : ∀ p q j k, x5 (ix4 p q (hi j) k) = a7 V0 (ix4 p q j k))
    (h6lo : ∀ p q j, x6 (ix3 p q (lo j)) = a6 V0 (ix3 p q j)) (h6hi : ∀ p q j, x6 (ix3 p q (hi j)) = a8 V0 (ix3 p q j)) :
    Cert.Bridge.WLink (loadsOf x0 x1 x2 x3 x4 x5 x6) V0 where
  w17 := funext fun n => funext fun k => (ld4 x3 0 0 (by decide) (by decide) _ n k).trans (h3 _)
  w63 := funext fun n => funext fun k => (ld4 x3 0 1 (by decide) (by decide) _ n k).trans (h3 _)
  w109 := funext fun n => funext fun k => (ld4 x3 1 0 (by decide) (by decide) _ n k).trans (h3 _)
  w155 := funext fun n => funext fun k => (ld4 x3 1 1 (by decide) (by decide) _ n k).trans (h3 _)
  b19 := funext fun n => (ld3 x4 0 0 (by decide) (by decide) _ n).trans (h4 _)
  b65 := funext fun n => (ld3 x4 0 1 (by decide) (by decide) _ n).trans (h4 _)
  b111 := funext fun n => (ld3 x4 1 0 (by decide) (by decide) _ n).trans (h4 _)
  b157 := funext fun n => (ld3 x4 1 1 (by decide) (by decide) _ n).trans (h4 _)
  m21 := fun j => funext fun k => (ld4 x5 0 0 (by decide) (by decide) _ (lo j) k).trans (h5lo _ _ j k)
  s21 := fun j => funext fun k => (ld4 x5 0 0 (by decide) (by decide) _ (hi j) k).trans (h5hi _ _ j k)
  m67 := fun j => funext fun k => (ld4 x5 0 1 (by decide) (by decide) _ (lo j) k).trans (h5lo _ _ j k)
  s67 := fun j => funext fun k => (ld4 x5 0 1 (by decide) (by decide) _ (hi j) k).trans (h5hi _ _ j k)
  m113 := fun j => funext fun k => (ld4 x5 1 0 (by decide) (by decide) _ (lo j) k).trans (h5lo _ _ j k)
  s113 := fun j => funext fun k => (ld4 x5 1 0 (by decide) (by decide) _ (hi j) k).trans (h5hi _ _ j k)
  m159 := fun j => funext fun k => (ld4 x5 1 1 (by decide) (by decide) _ (lo j) k).trans (h5lo _ _ j k)
  s159 := fun j => funext fun k => (ld4 x5 1 1 (by decide) (by decide) _ (hi j) k).trans (h5hi _ _ j k)
  bm23 := fun j => (ld3 x6 0 0 (by decide) (by decide) _ (lo j)).trans (h6lo _ _ j)
  bs23 := fun j => (ld3 x6 0 0 (by decide) (by decide) _ (hi j)).trans (h6hi _ _ j)
  bm69 := fun j => (ld3 x6 0 1 (by decide) (by decide) _ (lo j)).trans (h6lo _ _ j)
  bs69 := fun j => (ld3 x6 0 1 (by decide) (by decide) _ (hi j)).trans (h6hi _ _ j)
  bm115 := fun j => (ld3 x6 1 0 (by decide) (by decide) _ (lo j)).trans (h6lo _ _ j)
  bs115 := fun j => (ld3 x6 1 0 (by decide) (by decide) _ (hi j)).trans (h6hi _ _ j)
  bm161 := fun j => (ld3 x6 1 1 (by decide) (by decide) _ (lo j)).trans (h6lo _ _ j)
  bs161 := fun j => (ld3 x6 1 1 (by decide) (by decide) _ (hi j)).trans (h6hi _ _ j)

/-- Row r of the three input blocks loaded whole. -/
theorem rlink_of (r : Fin 4096) (R : Fin 262144) (h0 : ∀ q, x0 (ix2 r q) = a0 V0 (ix2 R q)) (h1 : ∀ q, x1 (ix2 r q) = a1 V0 (ix2 R q))
    (h2 : ∀ q, x2 (ix2 r q) = a2 V0 (ix2 R q)) : Cert.Bridge.RLink (loadsOf x0 x1 x2 x3 x4 x5 x6) V0 r R where
  h0 := funext fun q => (congrFun (View.ld_unit_zero (S := S4096x128) hz2 _ x0) (ix2 r q)).trans (h0 q)
  h1 := funext fun q => (congrFun (View.ld_unit_zero (S := S4096x128) hz2 _ x1) (ix2 r q)).trans (h1 q)
  h2 := funext fun q => (congrFun (View.ld_unit_zero (S := S4096x128) hz2 _ x2) (ix2 r q)).trans (h2 q)

end

/-! ### Two stacks set one over the other along the third axis -/

theorem cat4_lo {b : ℕ} (x y : (⟨4, ![2, 2, 64, b]⟩ : Shape).Idx → EReal)
    (h : Shape.Concatenates [⟨4, ![2, 2, 64, b]⟩, ⟨4, ![2, 2, 64, b]⟩] ⟨4, ![2, 2, 128, b]⟩ (2 : Fin 4)) (p q : Fin 2) (j : Fin 64) (k : Fin b) :
    concatenate ⟨4, ![2, 2, 128, b]⟩ (2 : Fin 4) [⟨⟨4, ![2, 2, 64, b]⟩, x⟩, ⟨⟨4, ![2, 2, 64, b]⟩, y⟩] h (ix4 p q (lo j) k) = x (ix4 p q j k) :=
  concatenate_pair_apply_left (t := ⟨4, ![2, 2, 128, b]⟩) (2 : Fin 4) x y h (ix4 p q (lo j) k) rfl (ix4 p q j k)
    (fun ax => by match ax with | ⟨0, _⟩ => rfl | ⟨1, _⟩ => rfl | ⟨2, _⟩ => rfl | ⟨3, _⟩ => rfl)

theorem cat4_hi {b : ℕ} (x y : (⟨4, ![2, 2, 64, b]⟩ : Shape).Idx → EReal)
    (h : Shape.Concatenates [⟨4, ![2, 2, 64, b]⟩, ⟨4, ![2, 2, 64, b]⟩] ⟨4, ![2, 2, 128, b]⟩ (2 : Fin 4)) (p q : Fin 2) (j : Fin 64) (k : Fin b) :
    concatenate ⟨4, ![2, 2, 128, b]⟩ (2 : Fin 4) [⟨⟨4, ![2, 2, 64, b]⟩, x⟩, ⟨⟨4, ![2, 2, 64, b]⟩, y⟩] h (ix4 p q (hi j) k) = y (ix4 p q j k) :=
  concatenate_pair_apply_right (t := ⟨4, ![2, 2, 128, b]⟩) (2 : Fin 4) x y h (ix4 p q (hi j) k) rfl rfl (ix4 p q j k)
    (fun ax hb => by match ax with | ⟨0, _⟩ => rfl | ⟨1, _⟩ => rfl | ⟨2, _⟩ => exact absurd rfl hb | ⟨3, _⟩ => rfl)
    (by show j.val + 64 = 64 + j.val; omega)

theorem cat3_lo (x y : (⟨3, ![2, 2, 64]⟩ : Shape).Idx → EReal)
    (h : Shape.Concatenates [⟨3, ![2, 2, 64]⟩, ⟨3, ![2, 2, 64]⟩] ⟨3, ![2, 2, 128]⟩ (2 : Fin 3)) (p q : Fin 2) (j : Fin 64) :
    concatenate ⟨3, ![2, 2, 128]⟩ (2 : Fin 3) [⟨⟨3, ![2, 2, 64]⟩, x⟩, ⟨⟨3, ![2, 2, 64]⟩, y⟩] h (ix3 p q (lo j)) = x (ix3 p q j) :=
  concatenate_pair_apply_left (t := ⟨3, ![2, 2, 128]⟩) (2 : Fin 3) x y h (ix3 p q (lo j)) rfl (ix3 p q j)
    (fun ax => by match ax with | ⟨0, _⟩ => rfl | ⟨1, _⟩ => rfl | ⟨2, _⟩ => rfl)

theorem cat3_hi (x y : (⟨3, ![2, 2, 64]⟩ : Shape).Idx → EReal)
    (h : Shape.Concatenates [⟨3, ![2, 2, 64]⟩, ⟨3, ![2, 2, 64]⟩] ⟨3, ![2, 2, 128]⟩ (2 : Fin 3)) (p q : Fin 2) (j : Fin 64) :
    concatenate ⟨3, ![2, 2, 128]⟩ (2 : Fin 3) [⟨⟨3, ![2, 2, 64]⟩, x⟩, ⟨⟨3, ![2, 2, 64]⟩, y⟩] h (ix3 p q (hi j)) = y (ix3 p q j) :=
  concatenate_pair_apply_right (t := ⟨3, ![2, 2, 128]⟩) (2 : Fin 3) x y h (ix3 p q (hi j)) rfl rfl (ix3 p q j)
    (fun ax hb => by match ax with | ⟨0, _⟩ => rfl | ⟨1, _⟩ => rfl | ⟨2, _⟩ => exact absurd rfl hb)
    (by show j.val + 64 = 64 + j.val; omega)

/-! ### At the windows' blocks -/

variable (m : (ℓ : Loc nD τ sig) → Buf (Elt Ideal) ℓ) (c : Dev nD)

/-- The fused weight arrays the region finds: W_mu over W_sig, b_mu over b_sig. -/
theorem V_v0 : (V m c main_v0 : S2x2x128x50.Idx → EReal)
    = concatenate S2x2x128x50 2 [⟨S2x2x64x50, (V m c main_arg5 : S2x2x64x50.Idx → EReal)⟩, ⟨S2x2x64x50, (V m c main_arg7 : S2x2x64x50.Idx → EReal)⟩]
        Facts₀.concatenates_S2x2x64x50_S2x2x64x50_S2x2x128x50_d2 := by
  dsimp only [Gen.V, Gen.hostOps0]; after_results
theorem V_v1 : (V m c main_v1 : S2x2x128.Idx → EReal)
    = concatenate S2x2x128 2 [⟨S2x2x64, (V m c main_arg6 : S2x2x64.Idx → EReal)⟩, ⟨S2x2x64, (V m c main_arg8 : S2x2x64.Idx → EReal)⟩]
        Facts₀.concatenates_S2x2x64_S2x2x64_S2x2x128_d2 := by
  dsimp only [Gen.V, Gen.hostOps0]; after_results

/-- The printed index maps, decided over the 64 points: the row-blocked windows sit at block (t, 0) or (t); the weight
    windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 1) = t.val ∧ win0_9.index t (0 : Fin 1) = t.val
    ∧ (∀ a, win0_3.index t a = 0) ∧ (∀ a, win0_4.index t a = 0) ∧ (∀ a, win0_5.index t a = 0) ∧ (∀ a, win0_6.index t a = 0) :=
  (by decide +kernel : ∀ t : Fin grid0.N, _)

variable (t : Fin cfg0.N)

/-- Row y0 of point t's block of an input array is row 4096·t + y0 of the array. -/
theorem iblk0_row (y0 : Fin 4096) (q : Fin 128) (R : Fin 262144) (hR : R.val = t.val * 4096 + y0.val) :
    iblk m c 0 t (ix2 y0 q) = V m c main_arg0 (ix2 R q) := by
  obtain ⟨e00, e01, -⟩ := idx_facts t
  show V m c main_arg0 (((cfg0.win 0).blk t).view.emb (ix2 y0 q)) = _
  refine congrArg (V m c main_arg0) (funext fun a => Fin.ext ?_)
  match a with
  | ⟨0, _⟩ => show win0_0.index t (0 : Fin 2) * 4096 + 1 * y0.val = R.val; omega
  | ⟨1, _⟩ => show win0_0.index t (1 : Fin 2) * 128 + 1 * q.val = q.val; omega
theorem iblk1_row (y0 : Fin 4096) (q : Fin 128) (R : Fin 262144) (hR : R.val = t.val * 4096 + y0.val) :
    iblk m c 1 t (ix2 y0 q) = V m c main_arg1 (ix2 R q) := by
  obtain ⟨-, -, e10, e11, -⟩ := idx_facts t
  show V m c main_arg1 (((cfg0.win 1).blk t).view.emb (ix2 y0 q)) = _
  refine congrArg (V m c main_arg1) (funext fun a => Fin.ext ?_)
  match a with
  | ⟨0, _⟩ => show win0_1.index t (0 : Fin 2) * 4096 + 1 * y0.val = R.val; omega
  | ⟨1, _⟩ => show win0_1.index t (1 : Fin 2) * 128 + 1 * q.val = q.val; omega
theorem iblk2_row (y0 : Fin 4096) (q : Fin 128) (R : Fin 262144) (hR : R.val = t.val * 4096 + y0.val) :
    iblk m c 2 t (ix2 y0 q) = V m c main_arg2 (ix2 R q) := by
  obtain ⟨-, -, -, -, e20, e21, -⟩ := idx_facts t
  show V m c main_arg2 (((cfg0.win 2).blk t).view.emb (ix2 y0 q)) = _
  refine congrArg (V m c main_arg2) (funext fun a => Fin.ext ?_)
  match a with
  | ⟨0, _⟩ => show win0_2.index t (0 : Fin 2) * 4096 + 1 * y0.val = R.val; omega
  | ⟨1, _⟩ => show win0_2.index t (1 : Fin 2) * 128 + 1 * q.val = q.val; omega

/-- The weight windows' block is the whole array at every point. -/
theorem iblk3_eq (i : S2x2x50x64.Idx) : iblk m c 3 t i = V m c main_arg3 i := by
  obtain ⟨-, -, -, -, -, -, -, -, -, -, e3, -⟩ := idx_facts t
  show V m c main_arg3 (((cfg0.win 3).blk t).view.emb i) = _
  refine congrArg (V m c main_arg3) (funext fun a => Fin.ext ?_)
  show win0_3.index t a * S2x2x50x64.size a + 1 * (i a).val = (i a).val
  rw [e3 a]; omega
theorem iblk4_eq (i : S2x2x50.Idx) : iblk m c 4 t i = V m c main_arg4 i := by
  obtain ⟨-, -, -, -, -, -, -, -, -, -, -, e4, -⟩ := idx_facts t
  show V m c main_arg4 (((cfg0.win 4).blk t).view.emb i) = _
  refine congrArg (V m c main_arg4) (funext fun a => Fin.ext ?_)
  show win0_4.index t a * S2x2x50.size a + 1 * (i a).val = (i a).val
  rw [e4 a]; omega
theorem iblk5_eq (i : S2x2x128x50.Idx) : iblk m c 5 t i = V m c main_v0 i := by
  obtain ⟨-, -, -, -, -, -, -, -, -, -, -, -, e5, -⟩ := idx_facts t
  show V m c main_v0 (((cfg0.win 5).blk t).view.emb i) = _
  refine congrArg (V m c main_v0) (funext fun a => Fin.ext ?_)
  show win0_5.index t a * S2x2x128x50.size a + 1 * (i a).val = (i a).val
  rw [e5 a]; omega
theorem iblk6_eq (i : S2x2x128.Idx) : iblk m c 6 t i = V m c main_v1 i := by
  obtain ⟨-, -, -, -, -, -, -, -, -, -, -, -, -, e6⟩ := idx_facts t
  show V m c main_v1 (((cfg0.win 6).blk t).view.emb i) = _
  refine congrArg (V m c main_v1) (funext fun a => Fin.ext ?_)
  show win0_6.index t a * S2x2x128.size a + 1 * (i a).val = (i a).val
  rw [e6 a]; omega

/-! ### One point's write-back is a block of the reference's results -/

variable (V0 : Valuation Cert.ReferenceIdeal.τ Cert.ReferenceIdeal.sig (Elt Ideal))

/-- The reference's arguments are the arrays the region finds (the kernel's arguments). -/
structure Agree : Prop where
  e0 : ∀ i, a0 V0 i = V m c main_arg0 i
  e1 : ∀ i, a1 V0 i = V m c main_arg1 i
  e2 : ∀ i, a2 V0 i = V m c main_arg2 i
  e3 : ∀ i, a3 V0 i = V m c main_arg3 i
  e4 : ∀ i, a4 V0 i = V m c main_arg4 i
  e5 : ∀ i, a5 V0 i = V m c main_arg5 i
  e6 : ∀ i, a6 V0 i = V m c main_arg6 i
  e7 : ∀ i, a7 V0 i = V m c main_arg7 i
  e8 : ∀ i, a8 V0 i = V m c main_arg8 i

/-- mean, logvar, eps, W_sig and b_sig have real entries. -/
structure RealArgs : Prop where
  r0 : IsReal (a0 V0)
  r1 : IsReal (a1 V0)
  r2 : IsReal (a2 V0)
  r7 : IsReal (a7 V0)
  r8 : IsReal (a8 V0)

omit [Cert.ReferenceIdeal.Facts] in
theorem realIn (hF : RealArgs V0) (R : Fin 262144) : Cert.Bridge.RealIn V0 R where
  r0 := fun q => hF.r0 (ix2 R q)
  r1 := fun q => hF.r1 (ix2 R q)
  r2 := fun q => hF.r2 (ix2 R q)
  ws := fun p q j k => hF.r7 (ix4 p q j k)
  bs := fun p q j => hF.r8 (ix3 p q j)

/-- The point's loads. -/
abbrev loads : Cert.Bridge.Loads :=
  loadsOf (iblk m c 0 t) (iblk m c 1 t) (iblk m c 2 t) (iblk m c 3 t) (iblk m c 4 t) (iblk m c 5 t) (iblk m c 6 t)

variable (hA : Agree m c V0)
include hA

theorem wlink : Cert.Bridge.WLink (loads m c t) V0 :=
  wlink_of _ _ _ _ _ _ _ V0
    (fun i => (iblk3_eq m c t i).trans (hA.e3 i).symm)
    (fun i => (iblk4_eq m c t i).trans (hA.e4 i).symm)
    (fun p q j k => (iblk5_eq m c t _).trans ((congrFun (V_v0 m c) _).trans ((cat4_lo _ _ _ p q j k).trans (hA.e5 _).symm)))
    (fun p q j k => (iblk5_eq m c t _).trans ((congrFun (V_v0 m c) _).trans ((cat4_hi _ _ _ p q j k).trans (hA.e7 _).symm)))
    (fun p q j => (iblk6_eq m c t _).trans ((congrFun (V_v1 m c) _).trans ((cat3_lo _ _ _ p q j).trans (hA.e6 _).symm)))
    (fun p q j => (iblk6_eq m c t _).trans ((congrFun (V_v1 m c) _).trans ((cat3_hi _ _ _ p q j).trans (hA.e8 _).symm)))

theorem rlink (y0 : Fin 4096) (R : Fin 262144) (hR : R.val = t.val * 4096 + y0.val) : Cert.Bridge.RLink (loads m c t) V0 y0 R :=
  rlink_of _ _ _ _ _ _ _ V0 y0 R
    (fun q => (iblk0_row m c t y0 q R hR).trans (hA.e0 _).symm)
    (fun q => (iblk1_row m c t y0 q R hR).trans (hA.e1 _).symm)
    (fun q => (iblk2_row m c t y0 q R hR).trans (hA.e2 _).symm)

/-- What point t writes back to the z output is block t of the reference's z. -/
theorem flushed7_eq :
    (dats m 0 c).flushed 7 t = ((cfg0.win 7).blk t).view.read (Elt Ideal) (res_main_v173 V0) := by
  show (cfg0.win 7).cut (grid0.coords t) ((dats m 0 c).after 7 t) = _
  rw [after0_7, out7_of, View.canon_unit_zero hz2]
  obtain ⟨-, -, -, -, -, -, e70, e71, -⟩ := idx_facts t
  have ht : t.val < 64 := t.isLt
  funext y
  have hy0 : (y 0).val < 4096 := (y 0).isLt
  let R : Fin 262144 := ⟨t.val * 4096 + (y 0).val, by omega⟩
  refine ((congrArg (Cert.Bridge.KOUT (loads m c t)) (eq_ix2 y)).trans
    (congrFun (Cert.Bridge.bridge_z _ V0 (y 0) R (wlink m c t V0 hA) (rlink m c t V0 hA (y 0) R rfl)) (y 1))).trans ?_
  show res_main_v173 V0 (ix2 R (y 1)) = res_main_v173 V0 (((cfg0.win 7).blk t).view.emb y)
  refine congrArg (res_main_v173 V0) (funext fun a => Fin.ext ?_)
  match a with
  | ⟨0, _⟩ => show t.val * 4096 + (y 0).val = win0_7.index t (0 : Fin 2) * 4096 + 1 * (y 0).val; omega
  | ⟨1, _⟩ => show (y 1).val = win0_7.index t (1 : Fin 2) * 128 + 1 * (y 1).val; omega

/-- What point t writes back to logpz is block t of the reference's logpz. -/
theorem flushed8_eq :
    (dats m 0 c).flushed 8 t = ((cfg0.win 8).blk t).view.read (Elt Ideal) (val4 V0 (Proc.devRef .tc Cert.ReferenceIdeal.main_v178)) := by
  show (cfg0.win 8).cut (grid0.coords t) ((dats m 0 c).after 8 t) = _
  rw [after0_8, out8_of, View.canon_unit_zero hz1]
  obtain ⟨-, -, -, -, -, -, -, -, e8, -⟩ := idx_facts t
  have ht : t.val < 64 := t.isLt
  funext y
  have hy0 : (y 0).val < 4096 := (y 0).isLt
  let R : Fin 262144 := ⟨t.val * 4096 + (y 0).val, by omega⟩
  refine ((congrArg (Cert.Bridge.KPZ (loads m c t)) (eq_ix1 y)).trans
    (Cert.Bridge.bridge_pz _ V0 (y 0) R (wlink m c t V0 hA) (rlink m c t V0 hA (y 0) R rfl))).trans ?_
  show val4 V0 (Proc.devRef .tc Cert.ReferenceIdeal.main_v178) (ix1 R) = val4 V0 (Proc.devRef .tc Cert.ReferenceIdeal.main_v178) (((cfg0.win 8).blk t).view.emb y)
  refine congrArg (val4 V0 (Proc.devRef .tc Cert.ReferenceIdeal.main_v178)) (funext fun a => Fin.ext ?_)
  match a with
  | ⟨0, _⟩ => show t.val * 4096 + (y 0).val = win0_8.index t (0 : Fin 1) * 4096 + 1 * (y 0).val; omega

/-- What point t writes back to logqz is block t of the reference's logqz (the arguments' entries being real). -/
theorem flushed9_eq (hF : RealArgs V0) :
    (dats m 0 c).flushed 9 t = ((cfg0.win 9).blk t).view.read (Elt Ideal) (val4 V0 (Proc.devRef .tc Cert.ReferenceIdeal.main_v174)) := by
  show (cfg0.win 9).cut (grid0.coords t) ((dats m 0 c).after 9 t) = _
  rw [after0_9, out9_of, View.canon_unit_zero hz1]
  obtain ⟨-, -, -, -, -, -, -, -, -, e9, -⟩ := idx_facts t
  have ht : t.val < 64 := t.isLt
  funext y
  have hy0 : (y 0).val < 4096 := (y 0).isLt
  let R : Fin 262144 := ⟨t.val * 4096 + (y 0).val, by omega⟩
  refine ((congrArg (Cert.Bridge.KQZ (loads m c t)) (eq_ix1 y)).trans
    (Cert.Bridge.bridge_qz _ V0 (y 0) R (wlink m c t V0 hA) (rlink m c t V0 hA (y 0) R rfl) (realIn V0 hF R))).trans ?_
  show val4 V0 (Proc.devRef .tc Cert.ReferenceIdeal.main_v174) (ix1 R) = val4 V0 (Proc.devRef .tc Cert.ReferenceIdeal.main_v174) (((cfg0.win 9).blk t).view.emb y)
  refine congrArg (val4 V0 (Proc.devRef .tc Cert.ReferenceIdeal.main_v174)) (funext fun a => Fin.ext ?_)
  match a with
  | ⟨0, _⟩ => show t.val * 4096 + (y 0).val = win0_9.index t (0 : Fin 1) * 4096 + 1 * (y 0).val; omega

/-! ### The 64 blocks cover each output array -/

omit hA [Cert.ReferenceIdeal.Facts] in
theorem mem_blk7 (i : S262144x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v2_0).slice (win0_7.rect t)).set ↔ _
  rw [View.set_slice_whole, Rect.mem_set_unit]
  exact Iff.rfl

omit hA [Cert.ReferenceIdeal.Facts] in
theorem cover7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  let t : Fin cfg0.N := ⟨(i 0).val / 4096, by show _ < 64; omega⟩
  have hv : t.val = (i 0).val / 4096 := rfl
  obtain ⟨-, -, -, -, -, -, e70, e71, -⟩ := idx_facts t
  refine ⟨t, flush0_7 t, ?_⟩
  rw [mem_blk7]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 128 ≤ (i 1).val ∧ (i 1).val < win0_7.index t (1 : Fin 2) * 128 + 128; omega

omit hA [Cert.ReferenceIdeal.Facts] in
theorem mem_blk8 (i : S262144.Idx) :
    i ∈ ((cfg0.win 8).blk t).view.set ↔ ∀ a : Fin 1, win0_8.index t a * S4096.size a ≤ (i a).val ∧ (i a).val < win0_8.index t a * S4096.size a + S4096.size a := by
  show i ∈ ((View.whole main_v2_1).slice (win0_8.rect t)).set ↔ _
  rw [View.set_slice_whole, Rect.mem_set_unit]
  exact Iff.rfl

omit hA [Cert.ReferenceIdeal.Facts] in
theorem cover8 (i : S262144.Idx) : ∃ t : Fin cfg0.N, (cfg0.win 8).flush t = true ∧ i ∈ ((cfg0.win 8).blk t).view.set := by
  have hi0 : (i 0).val < 262144 := (i 0).isLt
  let t : Fin cfg0.N := ⟨(i 0).val / 4096, by show _ < 64; omega⟩
  have hv : t.val = (i 0).val / 4096 := rfl
  obtain ⟨-, -, -, -, -, -, -, -, e8, -⟩ := idx_facts t
  refine ⟨t, flush0_8 t, ?_⟩
  rw [mem_blk8]
  intro a
  match a with
  | ⟨0, _⟩ => show win0_8.index t (0 : Fin 1) * 4096 ≤ (i 0).val ∧ (i 0).val < win0_8.index t (0 : Fin 1) * 4096 + 4096; omega

omit hA [Cert.ReferenceIdeal.Facts] in
theorem mem_blk9 (i : S262144.Idx) :
    i ∈ ((cfg0.win 9).blk t).view.set ↔ ∀ a : Fin 1, win0_9.index t a * S4096.size a ≤ (i a).val ∧ (i a).val < win0_9.index t a * S4096.size a + S4096.size a := by
  show i ∈ ((View.whole main_v2_2).slice (win0_9.rect t)).set ↔ _
  rw [View.set_slice_whole, Rect.mem_set_unit]
  exact Iff.rfl

omit hA [Cert.ReferenceIdeal.Facts] in
theorem cover9 (i : S262144.Idx) : ∃ t : Fin cfg0.N, (cfg0.win 9).flush t = true ∧ i ∈ ((cfg0.win 9).blk t).view.set := by
  have hi0 : (i 0).val < 262144 := (i 0).isLt
  let t : Fin cfg0.N := ⟨(i 0).val / 4096, by show _ < 64; omega⟩
  have hv : t.val = (i 0).val / 4096 := rfl
  obtain ⟨-, -, -, -, -, -, -, -, -, e9, -⟩ := idx_facts t
  refine ⟨t, flush0_9 t, ?_⟩
  rw [mem_blk9]
  intro a
  match a with
  | ⟨0, _⟩ => show win0_9.index t (0 : Fin 1) * 4096 ≤ (i 0).val ∧ (i 0).val < win0_9.index t (0 : Fin 1) * 4096 + 4096; omega

/-! ### The output arrays after the run -/

theorem final7 : (dats m 0 c).arrAt 7 cfg0.N = res_main_v173 V0 :=
  (dats m 0 c).arrAt_eq_of_cover 7 (res_main_v173 V0) (fun t _ => flushed7_eq m c t V0 hA) cover7

theorem final8 : (dats m 0 c).arrAt 8 cfg0.N = val4 V0 (Proc.devRef .tc Cert.ReferenceIdeal.main_v178) :=
  (dats m 0 c).arrAt_eq_of_cover 8 (val4 V0 (Proc.devRef .tc Cert.ReferenceIdeal.main_v178)) (fun t _ => flushed8_eq m c t V0 hA) cover8

theorem final9 (hF : RealArgs V0) : (dats m 0 c).arrAt 9 cfg0.N = val4 V0 (Proc.devRef .tc Cert.ReferenceIdeal.main_v174) :=
  (dats m 0 c).arrAt_eq_of_cover 9 (val4 V0 (Proc.devRef .tc Cert.ReferenceIdeal.main_v174)) (fun t _ => flushed9_eq m c t V0 hA hF) cover9

omit hA in
/-- The kernel's run: every weakly fair execution terminates with the three result arrays at the reference's three
    terms of the arguments (for any valuation that agrees with the kernel's arguments and is real where the laws
    need it), and the arguments unchanged. -/
theorem run (ρ : Dev nD → PrngReg) (W : Dev nD → Valuation Cert.ReferenceIdeal.τ Cert.ReferenceIdeal.sig (Elt Ideal))
    (hW : ∀ c, Agree m c (W c)) (hF : ∀ c, RealArgs (W c)) :
    θ_run defs (onTc (τ := τ) (main (F := Ideal))) ⟨m, fun _ => 0, ρ⟩ fun r => ∀ c : Dev nD,
      r.2.mem ((c : Thread nD τ).loc main_v2_0) = res_main_v173 (W c)
      ∧ r.2.mem ((c : Thread nD τ).loc main_v2_1) = val4 (W c) (Proc.devRef .tc Cert.ReferenceIdeal.main_v178)
      ∧ r.2.mem ((c : Thread nD τ).loc main_v2_2) = val4 (W c) (Proc.devRef .tc Cert.ReferenceIdeal.main_v174)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 7).trans (final7 m c (W c) (hW c)),
      ((h c).1 8).trans (final8 m c (W c) (hW c)),
      ((h c).1 9).trans (final9 m c (W c) (hW c) (hF c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Blocks

end
-- ==== Proof.FinitePre.lean ====
/-
  The precondition read: finite_inputs is the conjunction, over the nine argument arrays, of jnp.all(|x| < +inf).
  At the exact-real instance |x| is max(x, −x) and +inf is ⊤, so each conjunct says that every entry of that array is
  neither ⊥ nor ⊤: a real.
-/
import proofs.«102729_j7464653160938_2_alg».proof.Pre_finite_inputs
import Idealize.ShloMosaic.Lib.ReduceAll
import Idealize.ShloMosaic.Lib.Affine
import Idealize.ShloMosaic.Lib.ValueIdx
import proofs.«102729_j7464653160938_2_alg».proof.Proof.FlowAlgebra

open Idealize.ShloMosaic Idealize.ShloMosaic.ValueIdx Cert.Flow

noncomputable section

namespace Cert.Pre_finite_inputs.Reals

open Cert.Pre_finite_inputs

variable [Cert.Pre_finite_inputs.Facts]

instance : Subsingleton S_.Idx := ⟨fun a b => funext fun d => d.elim0⟩

/-- |x| < +inf, as the comparison's word, makes x a real. -/
theorem real_of_lt (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- One conjunct: jnp.all(|x| < +inf) makes every entry of x a real. -/
theorem all_real {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu ix0 = 1#1) : IsReal x :=
  fun i => real_of_lt (x i) (Host.reduce_andi_all _ _ h hu ix0 e i)

/-- finite_inputs makes every entry of every argument a real. -/
theorem real_args (a0 a1 a2 : FVec Ideal S262144x128 .f32) (a3 : FVec Ideal S2x2x50x64 .f32) (a4 : FVec Ideal S2x2x50 .f32)
    (a5 : FVec Ideal S2x2x64x50 .f32) (a6 : FVec Ideal S2x2x64 .f32) (a7 : FVec Ideal S2x2x64x50 .f32) (a8 : FVec Ideal S2x2x64 .f32)
    (h : fn (F := Ideal) a0 a1 a2 a3 a4 a5 a6 a7 a8 = fun _ => 1#1) :
    IsReal a0 ∧ IsReal a1 ∧ IsReal a2 ∧ IsReal a3 ∧ IsReal a4 ∧ IsReal a5 ∧ IsReal a6 ∧ IsReal a7 ∧ IsReal a8 := by
  have h0 := congrFun h ix0
  dsimp only [fn, fn_part1, fn_part2] at h0
  have hand : ∀ (a b : IVec S_ 1) (i : S_.Idx), andi a b i = IntOp.andi (a i) (b i) := fun _ _ _ => rfl
  simp only [hand, IntOp.andi_eq_one] at h0
  obtain ⟨⟨⟨⟨⟨⟨⟨⟨e0, e1⟩, e2⟩, e3⟩, e4⟩, e5⟩, e6⟩, e7⟩, e8⟩ := h0
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7, all_real a8 _ _ _ e8⟩

end Cert.Pre_finite_inputs.Reals

end
-- ==== Proof.lean ====
/- The certificate of a normalizing-flow sampler: one TensorCore kernel over 64 blocks of 4096 batch rows against a jnp reference.

   Per batch row both programs compute z = eps·exp(½·logvar) + mean, push its halves z1 | z2 through four affine
   coupling steps (hidden layer tanh(W_in x + b_in), then other ← other·sigmoid(s) + mu with mu, s affine in the
   hidden layer), and return z, logpz = −½ Σ z² and logqz = −½(Σ logvar + Σ (z−mean)²/exp(logvar)) − Σ_steps Σ log sigmoid(s).
   The kernel differs in spelling only: mu and s come from ONE matrix product with W_mu stacked over W_sig,
   log sigmoid(s) is −softplus(−s), and (z−mean)²/exp(logvar) is eps². At exact real arithmetic these agree wherever the
   inputs are real (the precondition): tanh is always real, so every s is real, and exp(½t)² = exp(t) ≠ 0.

   The proof goes row by row. FlowRow states the row functions; KernelRows and RefRows read each staged value of the
   two programs at a row; FlowAlgebra has the laws; Bridge joins one grid point of the kernel to the reference at a
   row; KernelBlocks carries that from a point's blocks to the whole output arrays (block t is rows 4096·t …, the 64
   blocks cover), so the kernel's run ends with its three arrays AT the reference's three terms; FinitePre reads the
   precondition as "every entry is a real". The three frames are the generated ones; nothing was idealized (no ledger
   entry), so the preservation conjunct is trivial. -/
import proofs.«102729_j7464653160938_2_alg».proof.Defs
import proofs.«102729_j7464653160938_2_alg».proof.Proof.Gen.Kernel
import proofs.«102729_j7464653160938_2_alg».proof.Proof.Gen.Kernel.Skeleton
import proofs.«102729_j7464653160938_2_alg».proof.Proof.Gen.Kernel.Launch
import proofs.«102729_j7464653160938_2_alg».proof.Proof.Gen.Kernel.Points
import proofs.«102729_j7464653160938_2_alg».proof.Proof.Gen.Kernel.Frame
import proofs.«102729_j7464653160938_2_alg».proof.Proof.Gen.KernelIdeal
import proofs.«102729_j7464653160938_2_alg».proof.Proof.Gen.KernelIdeal.Skeleton
import proofs.«102729_j7464653160938_2_alg».proof.Proof.Gen.KernelIdeal.Launch
import proofs.«102729_j7464653160938_2_alg».proof.Proof.Gen.KernelIdeal.Points
import proofs.«102729_j7464653160938_2_alg».proof.Proof.Gen.KernelIdeal.Frame
import proofs.«102729_j7464653160938_2_alg».proof.Proof.Gen.ReferenceIdeal.Run
import proofs.«102729_j7464653160938_2_alg».proof.Proof.Gen.ReferenceIdeal
import proofs.«102729_j7464653160938_2_alg».proof.Proof.Gen.Pre_finite_inputs
import proofs.«102729_j7464653160938_2_alg».proof.Proof.KernelBlocks
import proofs.«102729_j7464653160938_2_alg».proof.Proof.FinitePre
import Idealize.ShloMosaic.Adequacy
import Idealize.ShloMosaic.Init

noncomputable section

namespace Cert.Proof

open Idealize.ShloMosaic Idealize.SL.Sem Idealize.ShloMosaic.StableHlo Cert.Flow

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs end at the reference's three terms of the (agreeing, real) arguments. -/
theorem algebraic : Cert.algebraic_KernelIdeal_ReferenceIdeal := by
  intro m ρ m' ρ' hpre hagree
  have hW : ∀ c, Cert.KernelIdeal.Blocks.Agree m c (launchContents m' c) := fun c =>
    { e0 := fun i => congrFun ((hagree c).1.trans (Cert.KernelIdeal.Gen.V_main_arg0 m c).symm) i
      e1 := fun i => congrFun ((hagree c).2.1.trans (Cert.KernelIdeal.Gen.V_main_arg1 m c).symm) i
      e2 := fun i => congrFun ((hagree c).2.2.1.trans (Cert.KernelIdeal.Gen.V_main_arg2 m c).symm) i
      e3 := fun i => congrFun ((hagree c).2.2.2.1.trans (Cert.KernelIdeal.Gen.V_main_arg3 m c).symm) i
      e4 := fun i => congrFun ((hagree c).2.2.2.2.1.trans (Cert.KernelIdeal.Gen.V_main_arg4 m c).symm) i
      e5 := fun i => congrFun ((hagree c).2.2.2.2.2.1.trans (Cert.KernelIdeal.Gen.V_main_arg5 m c).symm) i
      e6 := fun i => congrFun ((hagree c).2.2.2.2.2.2.1.trans (Cert.KernelIdeal.Gen.V_main_arg6 m c).symm) i
      e7 := fun i => congrFun ((hagree c).2.2.2.2.2.2.2.1.trans (Cert.KernelIdeal.Gen.V_main_arg7 m c).symm) i
      e8 := fun i => congrFun ((hagree c).2.2.2.2.2.2.2.2.trans (Cert.KernelIdeal.Gen.V_main_arg8 m c).symm) i }
  have hF : ∀ c, Cert.KernelIdeal.Blocks.RealArgs (launchContents m' c) := fun c => by
    obtain ⟨q0, q1, q2, -, -, -, -, q7, q8⟩ := Cert.Pre_finite_inputs.Reals.real_args _ _ _ _ _ _ _ _ _ (hpre c)
    exact
      { r0 := fun i => by rw [show Cert.ReferenceIdeal.Rows.a0 (launchContents m' c) i = _ from congrFun (hagree c).1 i]; exact q0 i
        r1 := fun i => by rw [show Cert.ReferenceIdeal.Rows.a1 (launchContents m' c) i = _ from congrFun (hagree c).2.1 i]; exact q1 i
        r2 := fun i => by rw [show Cert.ReferenceIdeal.Rows.a2 (launchContents m' c) i = _ from congrFun (hagree c).2.2.1 i]; exact q2 i
        r7 := fun i => by rw [show Cert.ReferenceIdeal.Rows.a7 (launchContents m' c) i = _ from congrFun (hagree c).2.2.2.2.2.2.2.1 i]; exact q7 i
        r8 := fun i => by rw [show Cert.ReferenceIdeal.Rows.a8 (launchContents m' c) i = _ from congrFun (hagree c).2.2.2.2.2.2.2.2 i]; exact q8 i }
  refine ⟨fun c => Cert.ReferenceIdeal.Value.res_main_v173 (launchContents m' c),
    fun c => Cert.ReferenceIdeal.Value.val4 (launchContents m' c) (Proc.devRef .tc Cert.ReferenceIdeal.main_v178),
    fun c => Cert.ReferenceIdeal.Value.val4 (launchContents m' c) (Proc.devRef .tc Cert.ReferenceIdeal.main_v174),
    Cert.KernelIdeal.Blocks.run m ρ (fun c => launchContents m' c) hW hF, ?_⟩
  exact (θ_run Cert.ReferenceIdeal.defs _ _).mono
    (fun _ h c => ⟨(h c).1, (h c).2.1.trans (Cert.ReferenceIdeal.Value.val4_main_v178 _).symm,
      (h c).2.2.1.trans (Cert.ReferenceIdeal.Value.val4_main_v174 _).symm, (h c).2.2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
